-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x800000 : Shape := ⟨2, ![2, 800000]⟩
abbrev S800000 : Shape := ⟨1, ![800000]⟩
abbrev S1000x32 : Shape := ⟨2, ![1000, 32]⟩
abbrev S160x128 : Shape := ⟨2, ![160, 128]⟩
abbrev S128 : Shape := ⟨1, ![128]⟩
abbrev S2x1024x32 : Shape := ⟨3, ![2, 1024, 32]⟩
abbrev S2x128x128 : Shape := ⟨3, ![2, 128, 128]⟩
abbrev S2x128 : Shape := ⟨2, ![2, 128]⟩
abbrev S2x32x128 : Shape := ⟨3, ![2, 32, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000x32 : S_.BroadcastsInDim S1000x32 (![] : Fin 0 → Fin S1000x32.rank)
  reducesTo_S1000x32_S_d0_1 : S1000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S2x1024x32 : S_.BroadcastsInDim S2x1024x32 (![] : Fin 0 → Fin S2x1024x32.rank)
  reducesTo_S2x1024x32_S_d0_1_2 : S2x1024x32.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x32x128 : S_.BroadcastsInDim S2x32x128 (![] : Fin 0 → Fin S2x32x128.rank)
  reducesTo_S2x32x128_S_d0_1_2 : S2x32x128.ReducesTo [0, 1, 2] S_

variable [Facts]

def fn_part3 {F : FTy → Type} [FloatOps F] (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  main_v53

def fn_part2 {F : FTy → Type} [FloatOps F] (main_arg10 : FVec F S2x128 .f32) (main_arg11 : FVec F S2x32x128 .f32) (main_arg12 : FVec F S2x128 .f32) (main_arg13 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x32x128 .f32 := Host.absf main_arg11
  let main_cst_14 : FVec F S_ .f32 := constant S_ .f32 0x7F800000#32
  let main_v40 : FVec F S2x32x128 .f32 := broadcastInDim S2x32x128 ![] bcast_S_S2x32x128 main_cst_14
  let main_v41 : IVec S2x32x128 1 := cmpf .olt main_v39 main_v40
  let main_c_15 : IVec S_ 1 := constantI S_ 1 1#1
  let main_v42 : IVec S_ 1 := (fun x v => Host.reduce IntOp.andi x v reducesTo_S2x32x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg13
  let main_cst_18 : FVec F S_ .f32 := constant S_ .f32 0x7F800000#32
  let main_v50 : FVec F S2x128 .f32 := broadcastInDim S2x128 ![] bcast_S_S2x128 main_cst_18
  fn_part3 (F := F) main_v48 main_v49 main_v50

def fn_part1 {F : FTy → Type} [FloatOps F] (main_arg7 : FVec F S2x1024x32 .f32) (main_arg8 : FVec F S2x128x128 .f32) (main_arg9 : FVec F S2x128x128 .f32) (main_arg10 : FVec F S2x128 .f32) (main_arg11 : FVec F S2x32x128 .f32) (main_arg12 : FVec F S2x128 .f32) (main_arg13 : FVec F S2x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x1024x32 .f32 := Host.absf main_arg7
  let main_cst_6 : FVec F S_ .f32 := constant S_ .f32 0x7F800000#32
  let main_v20 : FVec F S2x1024x32 .f32 := broadcastInDim S2x1024x32 ![] bcast_S_S2x1024x32 main_cst_6
  let main_v21 : IVec S2x1024x32 1 := cmpf .olt main_v19 main_v20
  let main_c_7 : IVec S_ 1 := constantI S_ 1 1#1
  let main_v22 : IVec S_ 1 := (fun x v => Host.reduce IntOp.andi x v reducesTo_S2x1024x32_S_d0_1_2 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg9
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : IVec S50000 32) (main_arg2 : IVec S2x800000 32) (main_arg3 : IVec S800000 32) (main_arg4 : FVec F S1000x32 .f32) (main_arg5 : FVec F S160x128 .f32) (main_arg6 : FVec F S128 .f32) (main_arg7 : FVec F S2x1024x32 .f32) (main_arg8 : FVec F S2x128x128 .f32) (main_arg9 : FVec F S2x128x128 .f32) (main_arg10 : FVec F S2x128 .f32) (main_arg11 : FVec F S2x32x128 .f32) (main_arg12 : FVec F S2x128 .f32) (main_arg13 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000x32 .f32 := Host.absf main_arg4
  let main_cst_0 : FVec F S_ .f32 := constant S_ .f32 0x7F800000#32
  let main_v5 : FVec F S1000x32 .f32 := broadcastInDim S1000x32 ![] bcast_S_S1000x32 main_cst_0
  let main_v6 : IVec S1000x32 1 := cmpf .olt main_v4 main_v5
  let main_c_1 : IVec S_ 1 := constantI S_ 1 1#1
  let main_v7 : IVec S_ 1 := (fun x v => Host.reduce IntOp.andi x v reducesTo_S1000x32_S_d0_1 h_S_) main_v6 main_c_1
  let main_v8 : IVec S_ 1 := andi main_v3 main_v7
  let main_v9 : FVec F S160x128 .f32 := Host.absf main_arg5
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S50000 : Shape := ⟨1, ![50000]⟩
abbrev S2x800000 : Shape := ⟨2, ![2, 800000]⟩
abbrev S800000 : Shape := ⟨1, ![800000]⟩
abbrev S1000x32 : Shape := ⟨2, ![1000, 32]⟩
abbrev S160x128 : Shape := ⟨2, ![160, 128]⟩
abbrev S128 : Shape := ⟨1, ![128]⟩
abbrev S2x1024x32 : Shape := ⟨3, ![2, 1024, 32]⟩
abbrev S2x128x128 : Shape := ⟨3, ![2, 128, 128]⟩
abbrev S2x128 : Shape := ⟨2, ![2, 128]⟩
abbrev S2x32x128 : Shape := ⟨3, ![2, 32, 128]⟩
abbrev S1x800000 : Shape := ⟨2, ![1, 800000]⟩
abbrev S_ : Shape := ⟨0, ![]⟩
abbrev S50000x1 : Shape := ⟨2, ![50000, 1]⟩
abbrev S50000x32 : Shape := ⟨2, ![50000, 32]⟩
abbrev S50000x160 : Shape := ⟨2, ![50000, 160]⟩
abbrev S1x128 : Shape := ⟨2, ![1, 128]⟩
abbrev S2000x160 : Shape := ⟨2, ![2000, 160]⟩
abbrev S2000x128 : Shape := ⟨2, ![2000, 128]⟩
abbrev S800000x1 : Shape := ⟨2, ![800000, 1]⟩
abbrev S800000x128 : Shape := ⟨2, ![800000, 128]⟩
abbrev S1x1024x32 : Shape := ⟨3, ![1, 1024, 32]⟩
abbrev S1024x32 : Shape := ⟨2, ![1024, 32]⟩
abbrev S800000x32 : Shape := ⟨2, ![800000, 32]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S5000x128 : Shape := ⟨2, ![5000, 128]⟩
abbrev S5000x32 : Shape := ⟨2, ![5000, 32]⟩
abbrev S2000 : Shape := ⟨1, ![2000]⟩
abbrev S2000x1 : Shape := ⟨2, ![2000, 1]⟩

abbrev nBuf : Space → Nat
  | .hbm => 136
  | .vmem => 42
  | .smem => 0
  | _ => 0

abbrev hbmTy0_0 (i : Nat) : BufTy := match i % 128 with
  | 0 => ⟨S50000x128, .f32⟩
  | 1 => ⟨S50000, .i32⟩
  | 2 => ⟨S2x800000, .i32⟩
  | 3 => ⟨S800000, .i32⟩
  | 4 => ⟨S1000x32, .f32⟩
  | 5 => ⟨S160x128, .f32⟩
  | 6 => ⟨S128, .f32⟩
  | 7 => ⟨S2x1024x32, .f32⟩
  | 8 => ⟨S2x128x128, .f32⟩
  | 9 => ⟨S2x128x128, .f32⟩
  | 10 => ⟨S2x128, .f32⟩
  | 11 => ⟨S2x32x128, .f32⟩
  | 12 => ⟨S2x128, .f32⟩
  | 13 => ⟨S2x128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x32, .f32⟩
  | 27 => ⟨S50000x160, .f32⟩
  | 28 => ⟨S1x128, .f32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S50000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S1x1024x32, .f32⟩
  | 60 => ⟨S1024x32, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x32, .f32⟩
  | 70 => ⟨S1x128x128, .f32⟩
  | 71 => ⟨S128x128, .f32⟩
  | 72 => ⟨S1x32x128, .f32⟩
  | 73 => ⟨S32x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S1x1024x32, .f32⟩
  | 103 => ⟨S1024x32, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x32, .f32⟩
  | 113 => ⟨S1x128x128, .f32⟩
  | 114 => ⟨S128x128, .f32⟩
  | 115 => ⟨S1x32x128, .f32⟩
  | 116 => ⟨S32x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S1x128, .f32⟩
  | 6 => ⟨S1x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x160, .f32⟩
  | .local _ .vmem, ⟨1, _⟩ => ⟨S2000x160, .f32⟩
  | .local _ .vmem, ⟨2, _⟩ => ⟨S160x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x32, .f32⟩
  | .local _ .vmem, ⟨9, _⟩ => ⟨S5000x32, .f32⟩
  | .local _ .vmem, ⟨10, _⟩ => ⟨S128x128, .f32⟩
  | .local _ .vmem, ⟨11, _⟩ => ⟨S32x128, .f32⟩
  | .local _ .vmem, ⟨12, _⟩ => ⟨S5000x128, .f32⟩
  | .local _ .vmem, ⟨13, _⟩ => ⟨S5000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S5000x128, .f32⟩
  | .local _ .vmem, ⟨25, _⟩ => ⟨S5000x128, .f32⟩
  | .local _ .vmem, ⟨26, _⟩ => ⟨S5000x32, .f32⟩
  | .local _ .vmem, ⟨27, _⟩ => ⟨S5000x32, .f32⟩
  | .local _ .vmem, ⟨28, _⟩ => ⟨S128x128, .f32⟩
  | .local _ .vmem, ⟨29, _⟩ => ⟨S32x128, .f32⟩
  | .local _ .vmem, ⟨30, _⟩ => ⟨S5000x128, .f32⟩
  | .local _ .vmem, ⟨31, _⟩ => ⟨S5000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x32_S50000x160_d1 : Shape.Concatenates [S50000x128, S50000x32] S50000x160 1
  shapeCasts_S128_S1x128 : S128.ShapeCasts S1x128
  inb_S2000x160_S2000x160_0_0 : ∀ a, (![0, 0] : Fin 2 → Nat) a + S2000x160.size a ≤ S2000x160.size a
  h_S2000x160 : 0 < S2000x160.numel
  shapeCasts_S2000x160_S2000x160 : S2000x160.ShapeCasts S2000x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  slices_S2x1024x32_S1x1024x32_0_0_0 : S2x1024x32.Slices ![0, 0, 0] S1x1024x32
  shapeCasts_S1x1024x32_S1024x32 : S1x1024x32.ShapeCasts S1024x32
  slices_S2x128x128_S1x128x128_0_0_0 : S2x128x128.Slices ![0, 0, 0] S1x128x128
  shapeCasts_S1x128x128_S128x128 : S1x128x128.ShapeCasts S128x128
  slices_S2x32x128_S1x32x128_0_0_0 : S2x32x128.Slices ![0, 0, 0] S1x32x128
  shapeCasts_S1x32x128_S32x128 : S1x32x128.ShapeCasts S32x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128_S1x128_0_0 : S2x128.Slices ![0, 0] S1x128
  shapeCasts_S1x128_S128 : S1x128.ShapeCasts S128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  slices_S2x1024x32_S1x1024x32_1_0_0 : S2x1024x32.Slices ![1, 0, 0] S1x1024x32
  slices_S2x128x128_S1x128x128_1_0_0 : S2x128x128.Slices ![1, 0, 0] S1x128x128
  slices_S2x32x128_S1x32x128_1_0_0 : S2x32x128.Slices ![1, 0, 0] S1x32x128
  slices_S2x128_S1x128_1_0 : S2x128.Slices ![1, 0] S1x128
  gather_S1000x32_S50000x1_S50000x32_1_0_n_n_0_1_132_wf : GatherDims.WF S1000x32 S50000x1 S50000x32 [1] [0] [] [0] [] 1 ![1, 32]
  dot_S2000x160_S160x128_S2000x128_1_0_0_1_n_n_wf : DotDims.WF S2000x160 S160x128 S2000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S1024x32_S800000x1_S800000x32_1_0_n_n_0_1_132_wf : GatherDims.WF S1024x32 S800000x1 S800000x32 [1] [0] [] [0] [] 1 ![1, 32]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x160.size a ≤ S50000x160.size a
  hwx0_0 : ∀ i : grid0.Coords, EltTy.bits .f32 = 32 ∨ (Rect.block (s := S50000x160) S2000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S800000x32.size a
  hwx1_1 : ∀ i : grid1.Coords, EltTy.bits .f32 = 32 ∨ (Rect.block (s := S800000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S800000x128.size a
  hwx1_4 : ∀ i : grid1.Coords, EltTy.bits .f32 = 32 ∨ (Rect.block (s := S800000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S800000x128.size a
  hwx3_0 : ∀ i : grid3.Coords, EltTy.bits .f32 = 32 ∨ (Rect.block (s := S800000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S800000x32.size a
  hwx3_1 : ∀ i : grid3.Coords, EltTy.bits .f32 = 32 ∨ (Rect.block (s := S800000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x128.size a ≤ S32x128.size a
  hwx3_3 : ∀ i : grid3.Coords, EltTy.bits .f32 = 32 ∨ (Rect.block (s := S32x128) S32x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S800000x128.size a
  hwx3_4 : ∀ i : grid3.Coords, EltTy.bits .f32 = 32 ∨ (Rect.block (s := S800000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def gather_S1000x32_S50000x1_S50000x32_1_0_n_n_0_1_132 : GatherDims S1000x32 S50000x1 S50000x32 where
  offsetDims := [1]
  collapsedSliceDims := [0]
  operandBatchingDims := []
  startIndicesBatchingDims := []
  startIndexMap := [0]
  indexVectorDim := 1
  sliceSizes := ![1, 32]
  wf := gather_S1000x32_S50000x1_S50000x32_1_0_n_n_0_1_132_wf
def dot_S2000x160_S160x128_S2000x128_1_0_0_1_n_n : DotDims S2000x160 S160x128 S2000x128 where
  lhsContracting := [1]
  rhsContracting := [0]
  lhsNonContracting := [0]
  rhsNonContracting := [1]
  lhsBatch := []
  rhsBatch := []
  wf := dot_S2000x160_S160x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S1024x32_S800000x1_S800000x32_1_0_n_n_0_1_132 : GatherDims S1024x32 S800000x1 S800000x32 where
  offsetDims := [1]
  collapsedSliceDims := [0]
  operandBatchingDims := []
  startIndicesBatchingDims := []
  startIndexMap := [0]
  indexVectorDim := 1
  sliceSizes := ![1, 32]
  wf := gather_S1024x32_S800000x1_S800000x32_1_0_n_n_0_1_132_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S2000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S32x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v100) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v101) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S50000 : Shape := ⟨1, ![50000]⟩
abbrev S2x800000 : Shape := ⟨2, ![2, 800000]⟩
abbrev S800000 : Shape := ⟨1, ![800000]⟩
abbrev S1000x32 : Shape := ⟨2, ![1000, 32]⟩
abbrev S160x128 : Shape := ⟨2, ![160, 128]⟩
abbrev S128 : Shape := ⟨1, ![128]⟩
abbrev S2x1024x32 : Shape := ⟨3, ![2, 1024, 32]⟩
abbrev S2x128x128 : Shape := ⟨3, ![2, 128, 128]⟩
abbrev S2x128 : Shape := ⟨2, ![2, 128]⟩
abbrev S2x32x128 : Shape := ⟨3, ![2, 32, 128]⟩
abbrev S1x800000 : Shape := ⟨2, ![1, 800000]⟩
abbrev S_ : Shape := ⟨0, ![]⟩
abbrev S50000x1 : Shape := ⟨2, ![50000, 1]⟩
abbrev S50000x32 : Shape := ⟨2, ![50000, 32]⟩
abbrev S50000x160 : Shape := ⟨2, ![50000, 160]⟩
abbrev S1x128 : Shape := ⟨2, ![1, 128]⟩
abbrev S800000x1 : Shape := ⟨2, ![800000, 1]⟩
abbrev S1x1024x32 : Shape := ⟨3, ![1, 1024, 32]⟩
abbrev S1024x32 : Shape := ⟨2, ![1024, 32]⟩
abbrev S800000x32 : Shape := ⟨2, ![800000, 32]⟩
abbrev S800000x128 : Shape := ⟨2, ![800000, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 211
  | .vmem => 0
  | .smem => 0
  | _ => 0

abbrev hbmTy0_0 (i : Nat) : BufTy := match i % 128 with
  | 0 => ⟨S50000x128, .f32⟩
  | 1 => ⟨S50000, .i32⟩
  | 2 => ⟨S2x800000, .i32⟩
  | 3 => ⟨S800000, .i32⟩
  | 4 => ⟨S1000x32, .f32⟩
  | 5 => ⟨S160x128, .f32⟩
  | 6 => ⟨S128, .f32⟩
  | 7 => ⟨S2x1024x32, .f32⟩
  | 8 => ⟨S2x128x128, .f32⟩
  | 9 => ⟨S2x128x128, .f32⟩
  | 10 => ⟨S2x128, .f32⟩
  | 11 => ⟨S2x32x128, .f32⟩
  | 12 => ⟨S2x128, .f32⟩
  | 13 => ⟨S2x128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x32, .f32⟩
  | 27 => ⟨S50000x160, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S_, .f32⟩
  | 48 => ⟨S50000, .f32⟩
  | 49 => ⟨S50000, .f32⟩
  | 50 => ⟨S_, .f32⟩
  | 51 => ⟨S_, .f32⟩
  | 52 => ⟨S50000, .f32⟩
  | 53 => ⟨S50000, .f32⟩
  | 54 => ⟨S50000x1, .f32⟩
  | 55 => ⟨S1x1024x32, .f32⟩
  | 56 => ⟨S1024x32, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x32, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S1x128x128, .f32⟩
  | 76 => ⟨S128x128, .f32⟩
  | 77 => ⟨S800000x128, .f32⟩
  | 78 => ⟨S1x32x128, .f32⟩
  | 79 => ⟨S32x128, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S50000, .f32⟩
  | 106 => ⟨S50000x1, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S50000x128, .f32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S_, .f32⟩
  | 122 => ⟨S50000x1, .f32⟩
  | 123 => ⟨S50000x1, .f32⟩
  | 124 => ⟨S50000x1, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x1024x32, .f32⟩
  | 6 => ⟨S1024x32, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x32, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S1x128x128, .f32⟩
  | 26 => ⟨S128x128, .f32⟩
  | 27 => ⟨S800000x128, .f32⟩
  | 28 => ⟨S1x32x128, .f32⟩
  | 29 => ⟨S32x128, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S_, .f32⟩
  | 72 => ⟨S50000x1, .f32⟩
  | 73 => ⟨S50000x1, .f32⟩
  | 74 => ⟨S50000x1, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_16 : Ref sig .tc := ⟨.hbm, 135, rfl⟩
abbrev main_v97 : Ref sig .tc := ⟨.hbm, 136, rfl⟩
abbrev main_v98 : Ref sig .tc := ⟨.hbm, 137, rfl⟩
abbrev main_c_17 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_18 : Ref sig .tc := ⟨.hbm, 144, rfl⟩
abbrev main_v104 : Ref sig .tc := ⟨.hbm, 145, rfl⟩
abbrev main_v105 : Ref sig .tc := ⟨.hbm, 146, rfl⟩
abbrev main_c_19 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_20 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_call3_cst : Ref sig .tc := ⟨.hbm, 175, rfl⟩
abbrev main_call3_v0 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_21 : Ref sig .tc := ⟨.hbm, 182, rfl⟩
abbrev main_v137 : Ref sig .tc := ⟨.hbm, 183, rfl⟩
abbrev main_v138 : Ref sig .tc := ⟨.hbm, 184, rfl⟩
abbrev main_cst_22 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_23 : Ref sig .tc := ⟨.hbm, 191, rfl⟩
abbrev main_v144 : Ref sig .tc := ⟨.hbm, 192, rfl⟩
abbrev main_v145 : Ref sig .tc := ⟨.hbm, 193, rfl⟩
abbrev main_cst_24 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_25 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x32_S50000x160_d1 : Shape.Concatenates [S50000x128, S50000x32] S50000x160 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S2x1024x32_S1x1024x32_0_0_0 : S2x1024x32.Slices ![0, 0, 0] S1x1024x32
  shapeCasts_S1x1024x32_S1024x32 : S1x1024x32.ShapeCasts S1024x32
  slices_S2x128x128_S1x128x128_0_0_0 : S2x128x128.Slices ![0, 0, 0] S1x128x128
  shapeCasts_S1x128x128_S128x128 : S1x128x128.ShapeCasts S128x128
  slices_S2x32x128_S1x32x128_0_0_0 : S2x32x128.Slices ![0, 0, 0] S1x32x128
  shapeCasts_S1x32x128_S32x128 : S1x32x128.ShapeCasts S32x128
  bcast_S50000x1_S50000x128_0_1 : S50000x1.BroadcastsInDim S50000x128 (![0, 1] : Fin 2 → Fin S50000x128.rank)
  slices_S2x128_S1x128_0_0 : S2x128.Slices ![0, 0] S1x128
  shapeCasts_S1x128_S128 : S1x128.ShapeCasts S128
  reducesTo_S50000x128_S50000_d1 : S50000x128.ReducesTo [1] S50000
  h_S_ : 0 < S_.numel
  bcast_S_S50000x1 : S_.BroadcastsInDim S50000x1 (![] : Fin 0 → Fin S50000x1.rank)
  slices_S2x1024x32_S1x1024x32_1_0_0 : S2x1024x32.Slices ![1, 0, 0] S1x1024x32
  slices_S2x128x128_S1x128x128_1_0_0 : S2x128x128.Slices ![1, 0, 0] S1x128x128
  slices_S2x32x128_S1x32x128_1_0_0 : S2x32x128.Slices ![1, 0, 0] S1x32x128
  slices_S2x128_S1x128_1_0 : S2x128.Slices ![1, 0] S1x128
  gather_S1000x32_S50000x1_S50000x32_1_0_n_n_0_1_132_wf : GatherDims.WF S1000x32 S50000x1 S50000x32 [1] [0] [] [0] [] 1 ![1, 32]
  dot_S50000x160_S160x128_S50000x128_1_0_0_1_n_n_wf : DotDims.WF S50000x160 S160x128 S50000x128 [1] [0] [0] [1] [] []
  scatter_S50000_S800000x1_S800000_n_0_0_1_wf : ScatterDims.WF S50000 S800000x1 S800000 [] [0] [0] 1
  gather_S1024x32_S800000x1_S800000x32_1_0_n_n_0_1_132_wf : GatherDims.WF S1024x32 S800000x1 S800000x32 [1] [0] [] [0] [] 1 ![1, 32]
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x32_S32x128_S800000x128_1_0_0_1_n_n_wf : DotDims.WF S800000x32 S32x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S1000x32_S50000x1_S50000x32_1_0_n_n_0_1_132 : GatherDims S1000x32 S50000x1 S50000x32 where
  offsetDims := [1]
  collapsedSliceDims := [0]
  operandBatchingDims := []
  startIndicesBatchingDims := []
  startIndexMap := [0]
  indexVectorDim := 1
  sliceSizes := ![1, 32]
  wf := gather_S1000x32_S50000x1_S50000x32_1_0_n_n_0_1_132_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S1024x32_S800000x1_S800000x32_1_0_n_n_0_1_132 : GatherDims S1024x32 S800000x1 S800000x32 where
  offsetDims := [1]
  collapsedSliceDims := [0]
  operandBatchingDims := []
  startIndicesBatchingDims := []
  startIndexMap := [0]
  indexVectorDim := 1
  sliceSizes := ![1, 32]
  wf := gather_S1024x32_S800000x1_S800000x32_1_0_n_n_0_1_132_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  @main is five kernel regions among stretches of host operations. The contents of every buffer at each boundary
  form a fold from the launch memory: a host stretch applies its operations, a region replaces its arrays by what
  its write-backs leave. The library's theorem for such a program ends with every unscoped buffer at the last
  boundary's contents; read at the result buffer that is the last region's output array after all of its grid
  points, and read at an argument it is the launch contents.
-/
import proofs.«143730_j55190329753873_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the last region's output array. -/
theorem result_ref : Pipeline.arrRef spec4 6 = main_v101 := rfl

/-- At the last boundary the result buffer holds the last region's output after all of its grid points. -/
theorem W12_result (c : Dev nD) :
    W12 m ρ c (Proc.devRef .tc main_v101) = (dat4 (V11 m ρ) c).arrAt 6 cfg4.N :=
  W12_arr m ρ c 6

set_option backward.isDefEq.respectTransparency.types false in
/-- Every weakly fair execution of @main terminates without a fault; the result buffer ends at the last boundary's
    contents and the argument arrays end as launched. -/
theorem run : θ_run defs (onTc (τ := τ) (main (F := F))) ⟨m, fun _ => 0, ρ⟩ (fun r => ∀ c : Dev nD,
      r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.Out

end
-- ==== Proof.Spec.lean ====
/-
  The mathematics of the graph encoder, one entry at a time, on the extended reals.

  Every dense stage of the encoder acts on the rows of a matrix independently, so each is stated for a matrix with any
  number `R` of rows: the same formula then describes a block of rows and the whole array.

  * the input projection: entry (p, q) is  max (∑ₖ x[p,k] · w[k,q] + b[q]) 0;
  * the message of an edge: entry (p, q) is  ∑ₖ hs[p,k] · wn[k,q] + ∑ₖ rg[p,k] · wr[k,q];
  * the node update: first  y[p,q] = max ((∑ₖ h[p,k] · ws[k,q] + b[q]) + agg[p,q]) 0,  then the row y[p,·] is
    normalised: with  μ = (∑ⱼ y[p,j]) / 128  and  σ² = (∑ⱼ (y[p,j] − μ)²) / 128,  entry (p, q) is
    ((y[p,q] − μ) · rsqrt (σ² + ε)) · g[q] + β[q].

  The divisor 128 and ε are the two f32 words both programs spell; they are never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `r` rows and `c` columns. -/
abbrev Mat (r c : Nat) := (⟨2, ![r, c]⟩ : Shape).Idx → EReal

/-- The f32 word of 128, the length of a row, as both programs spell it. -/
def rowLen : EReal := Ideal.ofBits .f32 0x43000000#32
/-- The f32 word of the variance's ε, as both programs spell it. -/
def eps : EReal := Ideal.ofBits .f32 0x3727C5AC#32

/-- One entry of the input projection: the rectified affine form of row `p` against column `q`. -/
def projAt {R : Nat} (x : Mat R 160) (w : Mat 160 128) (b : Fin 128 → EReal) (p : Fin R) (q : Fin 128) : EReal :=
  max ((∑ k : Fin 160, x (ix2 p k) * w (ix2 k q)) + b q) 0

/-- The input projection of a matrix of rows. -/
def proj {R : Nat} (x : Mat R 160) (w : Mat 160 128) (b : Fin 128 → EReal) : Mat R 128 :=
  fun j => projAt x w b (j 0) (j 1)

/-- One entry of an edge's message: the source row through the neighbour weights plus the relation row through the
    relation weights. -/
def msgAt {R : Nat} (hs : Mat R 128) (rg : Mat R 32) (wn : Mat 128 128) (wr : Mat 32 128) (p : Fin R) (q : Fin 128) : EReal :=
  (∑ k : Fin 128, hs (ix2 p k) * wn (ix2 k q)) + (∑ k : Fin 32, rg (ix2 p k) * wr (ix2 k q))

/-- The messages of a matrix of edges. -/
def msg {R : Nat} (hs : Mat R 128) (rg : Mat R 32) (wn : Mat 128 128) (wr : Mat 32 128) : Mat R 128 :=
  fun j => msgAt hs rg wn wr (j 0) (j 1)

/-- One entry of a node's row before normalisation: self transform, bias, aggregated messages, rectified. -/
def preAt {R : Nat} (h agg : Mat R 128) (ws : Mat 128 128) (b : Fin 128 → EReal) (p : Fin R) (q : Fin 128) : EReal :=
  max (((∑ k : Fin 128, h (ix2 p k) * ws (ix2 k q)) + b q) + agg (ix2 p q)) 0

/-- The mean of a row of 128 entries. -/
def mean (y : Fin 128 → EReal) : EReal := Ideal.div (∑ j : Fin 128, y j) rowLen

/-- The variance of a row of 128 entries about its mean. -/
def var (y : Fin 128 → EReal) : EReal := Ideal.div (∑ j : Fin 128, (y j - mean y) * (y j - mean y)) rowLen

/-- One entry of a normalised row: centred, scaled by the reciprocal root of the variance plus ε, then the affine map. -/
def normAt (y g beta : Fin 128 → EReal) (q : Fin 128) : EReal :=
  ((y q - mean y) * Ideal.rsqrt (var y + eps)) * g q + beta q

/-- One entry of the node update. -/
def updAt {R : Nat} (h agg : Mat R 128) (ws : Mat 128 128) (b g beta : Fin 128 → EReal) (p : Fin R) (q : Fin 128) : EReal :=
  normAt (fun j => preAt h agg ws b p j) g beta q

/-- The node update of a matrix of rows. -/
def upd {R : Nat} (h agg : Mat R 128) (ws : Mat 128 128) (b g beta : Fin 128 → EReal) : Mat R 128 :=
  fun j => updAt h agg ws b g beta (j 0) (j 1)

theorem proj_ix2 {R : Nat} (x : Mat R 160) (w : Mat 160 128) (b : Fin 128 → EReal) (p : Fin R) (q : Fin 128) :
    proj x w b (ix2 p q) = projAt x w b p q := rfl

theorem msg_ix2 {R : Nat} (hs : Mat R 128) (rg : Mat R 32) (wn : Mat 128 128) (wr : Mat 32 128) (p : Fin R) (q : Fin 128) :
    msg hs rg wn wr (ix2 p q) = msgAt hs rg wn wr p q := rfl

theorem upd_ix2 {R : Nat} (h agg : Mat R 128) (ws : Mat 128 128) (b g beta : Fin 128 → EReal) (p : Fin R) (q : Fin 128) :
    upd h agg ws b g beta (ix2 p q) = updAt h agg ws b g beta p q := rfl

end Cert.Spec

end
-- ==== Proof.Payloads.lean ====
/-
  The kernel bodies' stored blocks, one entry at a time.

  Each kernel body computes the block it stores from the blocks it loads by a chain of pointwise operations, matrix
  products into a zero accumulator, lane sums and layout steps. Read at entry `(p, q)` on the extended reals, where
  rounding to a narrower format is the identity, each chain is the specification's formula for that stage:
  the input projection, the edge message, and the node update with its row normalisation.
-/
import proofs.«143730_j55190329753873_2_alg».proof.Proof.Gen.KernelIdeal.Skeleton
import proofs.«143730_j55190329753873_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 8192

noncomputable section

namespace Cert.Payloads

open Cert.KernelIdeal Cert.KernelIdeal.Gen Idealize.ShloMosaic Idealize.ShloMosaic.ValueIdx

/-! ### The product of a `[2000, 160]` block with a `[160, 128]` block -/

theorem dot2000x160_lhs0 (i : S2000x128.Idx) (c : dot_S2000x160_S160x128_S2000x128_1_0_0_1_n_n.contr.Idx) :
    (dot_S2000x160_S160x128_S2000x128_1_0_0_1_n_n.lhsIdx i c 0).val = (i 0).val := by
  unfold DotDims.lhsIdx
  rw [dif_neg (show ¬(0 : Fin S2000x160.rank) ∈ dot_S2000x160_S160x128_S2000x128_1_0_0_1_n_n.lhsBatch by decide),
    dif_pos (show (0 : Fin S2000x160.rank) ∈ dot_S2000x160_S160x128_S2000x128_1_0_0_1_n_n.lhsNonContracting by decide)]
  rfl
theorem dot2000x160_lhs1 (i : S2000x128.Idx) (c : dot_S2000x160_S160x128_S2000x128_1_0_0_1_n_n.contr.Idx) :
    (dot_S2000x160_S160x128_S2000x128_1_0_0_1_n_n.lhsIdx i c 1).val = (c ⟨0, by decide⟩).val :=
  dot_S2000x160_S160x128_S2000x128_1_0_0_1_n_n.lhsIdx_val_of_single rfl i c
theorem dot2000x160_rhs0 (i : S2000x128.Idx) (c : dot_S2000x160_S160x128_S2000x128_1_0_0_1_n_n.contr.Idx) :
    (dot_S2000x160_S160x128_S2000x128_1_0_0_1_n_n.rhsIdx i c 0).val = (c ⟨0, by decide⟩).val :=
  dot_S2000x160_S160x128_S2000x128_1_0_0_1_n_n.rhsIdx_val_of_single rfl i c
theorem dot2000x160_rhs1 (i : S2000x128.Idx) (c : dot_S2000x160_S160x128_S2000x128_1_0_0_1_n_n.contr.Idx) :
    (dot_S2000x160_S160x128_S2000x128_1_0_0_1_n_n.rhsIdx i c 1).val = (i 1).val := by
  unfold DotDims.rhsIdx
  rw [dif_neg (show ¬(1 : Fin S160x128.rank) ∈ dot_S2000x160_S160x128_S2000x128_1_0_0_1_n_n.rhsBatch by decide),
    dif_pos (show (1 : Fin S160x128.rank) ∈ dot_S2000x160_S160x128_S2000x128_1_0_0_1_n_n.rhsNonContracting by decide)]
  rfl

/-- Into the zero accumulator, entry `(p, q)` of the product is `∑ₖ l[p,k] · r[k,q]`, whatever the operands' formats. -/
theorem dot2000x160_apply {φ₁ φ₂ : FTy} (l : FVec Ideal S2000x160 φ₁) (r : FVec Ideal S160x128 φ₂) (p : Fin 2000) (q : Fin 128) :
    matmul dot_S2000x160_S160x128_S2000x128_1_0_0_1_n_n none l r (constant (F := Ideal) S2000x128 .f32 0x00000000#32) (ix2 p q)
      = ∑ k : Fin 160, l (ix2 p k) * r (ix2 k q) := by
  simp only [matmul]
  rw [Ideal.matmul_constant_zero_apply,
    ← Equiv.sum_comp (contrEquiv1 dot_S2000x160_S160x128_S2000x128_1_0_0_1_n_n 160 rfl rfl).symm]
  refine Finset.sum_congr rfl fun k _ => ?_
  have hk := contrEquiv1_symm_val dot_S2000x160_S160x128_S2000x128_1_0_0_1_n_n 160 rfl rfl k
  have el : dot_S2000x160_S160x128_S2000x128_1_0_0_1_n_n.lhsIdx (ix2 p q) ((contrEquiv1 dot_S2000x160_S160x128_S2000x128_1_0_0_1_n_n 160 rfl rfl).symm k) = ix2 p k :=
    funext fun a => Fin.ext (by
      match a with
      | ⟨0, _⟩ => exact dot2000x160_lhs0 _ _
      | ⟨1, _⟩ => exact (dot2000x160_lhs1 _ _).trans hk)
  have er : dot_S2000x160_S160x128_S2000x128_1_0_0_1_n_n.rhsIdx (ix2 p q) ((contrEquiv1 dot_S2000x160_S160x128_S2000x128_1_0_0_1_n_n 160 rfl rfl).symm k) = ix2 k q :=
    funext fun a => Fin.ext (by
      match a with
      | ⟨0, _⟩ => exact (dot2000x160_rhs0 _ _).trans hk
      | ⟨1, _⟩ => exact dot2000x160_rhs1 _ _)
  rw [el, er]

/-! ### The product of a `[5000, 128]` block with a `[128, 128]` block -/

theorem dot5000x128_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot5000x128_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem dot5000x128_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem dot5000x128_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero accumulator, entry `(p, q)` of the product is `∑ₖ l[p,k] · r[k,q]`, whatever the operands' formats. -/
theorem dot5000x128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot5000x128_lhs0 _ _
      | ⟨1, _⟩ => exact (dot5000x128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot5000x128_rhs0 _ _).trans hk
      | ⟨1, _⟩ => exact dot5000x128_rhs1 _ _)
  rw [el, er]

/-! ### The product of a `[5000, 32]` block with a `[32, 128]` block -/

theorem dot5000x32_lhs0 (i : S5000x128.Idx) (c : dot_S5000x32_S32x128_S5000x128_1_0_0_1_n_n.contr.Idx) :
    (dot_S5000x32_S32x128_S5000x128_1_0_0_1_n_n.lhsIdx i c 0).val = (i 0).val := by
  unfold DotDims.lhsIdx
  rw [dif_neg (show ¬(0 : Fin S5000x32.rank) ∈ dot_S5000x32_S32x128_S5000x128_1_0_0_1_n_n.lhsBatch by decide),
    dif_pos (show (0 : Fin S5000x32.rank) ∈ dot_S5000x32_S32x128_S5000x128_1_0_0_1_n_n.lhsNonContracting by decide)]
  rfl
theorem dot5000x32_lhs1 (i : S5000x128.Idx) (c : dot_S5000x32_S32x128_S5000x128_1_0_0_1_n_n.contr.Idx) :
    (dot_S5000x32_S32x128_S5000x128_1_0_0_1_n_n.lhsIdx i c 1).val = (c ⟨0, by decide⟩).val :=
  dot_S5000x32_S32x128_S5000x128_1_0_0_1_n_n.lhsIdx_val_of_single rfl i c
theorem dot5000x32_rhs0 (i : S5000x128.Idx) (c : dot_S5000x32_S32x128_S5000x128_1_0_0_1_n_n.contr.Idx) :
    (dot_S5000x32_S32x128_S5000x128_1_0_0_1_n_n.rhsIdx i c 0).val = (c ⟨0, by decide⟩).val :=
  dot_S5000x32_S32x128_S5000x128_1_0_0_1_n_n.rhsIdx_val_of_single rfl i c
theorem dot5000x32_rhs1 (i : S5000x128.Idx) (c : dot_S5000x32_S32x128_S5000x128_1_0_0_1_n_n.contr.Idx) :
    (dot_S5000x32_S32x128_S5000x128_1_0_0_1_n_n.rhsIdx i c 1).val = (i 1).val := by
  unfold DotDims.rhsIdx
  rw [dif_neg (show ¬(1 : Fin S32x128.rank) ∈ dot_S5000x32_S32x128_S5000x128_1_0_0_1_n_n.rhsBatch by decide),
    dif_pos (show (1 : Fin S32x128.rank) ∈ dot_S5000x32_S32x128_S5000x128_1_0_0_1_n_n.rhsNonContracting by decide)]
  rfl

/-- Into the zero accumulator, entry `(p, q)` of the product is `∑ₖ l[p,k] · r[k,q]`, whatever the operands' formats. -/
theorem dot5000x32_apply {φ₁ φ₂ : FTy} (l : FVec Ideal S5000x32 φ₁) (r : FVec Ideal S32x128 φ₂) (p : Fin 5000) (q : Fin 128) :
    matmul dot_S5000x32_S32x128_S5000x128_1_0_0_1_n_n none l r (constant (F := Ideal) S5000x128 .f32 0x00000000#32) (ix2 p q)
      = ∑ k : Fin 32, l (ix2 p k) * r (ix2 k q) := by
  simp only [matmul]
  rw [Ideal.matmul_constant_zero_apply,
    ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k :=
    funext fun a => Fin.ext (by
      match a with
      | ⟨0, _⟩ => exact dot5000x32_lhs0 _ _
      | ⟨1, _⟩ => exact (dot5000x32_lhs1 _ _).trans hk)
  have er : dot_S5000x32_S32x128_S5000x128_1_0_0_1_n_n.rhsIdx (ix2 p q) ((contrEquiv1 dot_S5000x32_S32x128_S5000x128_1_0_0_1_n_n 32 rfl rfl).symm k) = ix2 k q :=
    funext fun a => Fin.ext (by
      match a with
      | ⟨0, _⟩ => exact (dot5000x32_rhs0 _ _).trans hk
      | ⟨1, _⟩ => exact dot5000x32_rhs1 _ _)
  rw [el, er]

/-! ### The product of a `[2000, 128]` block with a `[128, 128]` block -/

theorem dot2000x128_lhs0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot2000x128_lhs1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem dot2000x128_rhs0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem dot2000x128_rhs1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Into the zero accumulator, entry `(p, q)` of the product is `∑ₖ l[p,k] · r[k,q]`, whatever the operands' formats. -/
theorem dot2000x128_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact dot2000x128_lhs0 _ _
      | ⟨1, _⟩ => exact (dot2000x128_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot2000x128_rhs0 _ _).trans hk
      | ⟨1, _⟩ => exact dot2000x128_rhs1 _ _)
  rw [el, er]

/-! ### Layout steps read at an index -/

/-- A vector of `2000` entries viewed as a `[2000, 1]` column reads, at `(p, u)`, entry `p`. -/
theorem cast_col_apply {α : Type} (x : S2000.Idx → α) (p : Fin 2000) (u : Fin 1) :
    shapeCast S2000x1 x shapeCasts_S2000_S2000x1 (ix2 p u) = x (ix1 p) :=
  shapeCast_apply x shapeCasts_S2000_S2000x1 (ix2 p u) (ix1 p) (by
    rw [Shape.rowMajor_val_one, Shape.rowMajor_val_two]
    show p.val = p.val * 1 + u.val
    have := u.isLt
    omega)

/-- A `[2000, 1]` column spread over `128` lanes reads, at `(p, q)`, the column's entry `p`. -/
theorem bcast_col_apply {α : Type} (x : S2000x1.Idx → α) (p : Fin 2000) (q : Fin 128) :
    broadcastTo S2000x128 x broadcasts_S2000x1_S2000x128 (ix2 p q) = x (ix2 p (0 : Fin 1)) := by
  refine broadcastTo_apply x broadcasts_S2000x1_S2000x128 (ix2 p q) (ix2 p (0 : Fin 1)) fun ax => ?_
  match ax with
  | ⟨0, _⟩ =>
    show p.val = if (2000 : Nat) = 1 then 0 else p.val
    rw [if_neg (by decide)]
  | ⟨1, _⟩ => rfl

/-- A `[1, 128]` row spread over `2000` rows reads, at `(p, q)`, the row's entry `q`. -/
theorem bcast_row_apply {α : Type} (x : S1x128.Idx → α) (p : Fin 2000) (q : Fin 128) :
    broadcastTo S2000x128 x broadcasts_S1x128_S2000x128 (ix2 p q) = x (ix2 (0 : Fin 1) q) :=
  broadcastTo_1b_ab_apply x broadcasts_S1x128_S2000x128 p q

/-- The sum along the lanes of a `[2000, 128]` block reads, at row `p`, `∑ⱼ src[p,j]`. -/
theorem laneSum_apply (src : FVec Ideal S2000x128 .f32) (p : Fin 2000) :
    multiReduction (F := Ideal) .add [1] S2000 src 0x00000000#32 reduces_S2000x128_S2000 (.inl rfl) rfl (ix1 p)
      = ∑ j : Fin 128, src (ix2 p j) := by
  refine (Ideal.multiReduction_add_single src 0x00000000#32 reduces_S2000x128_S2000 (.inl rfl) rfl (ix1 p)).trans ?_
  refine Finset.sum_congr rfl fun j _ => congrArg src (funext fun a => Fin.ext ?_)
  match a with
  | ⟨0, _⟩ => rfl
  | ⟨1, _⟩ => rfl

/-! ### The payloads -/

/-- The reciprocal root of a block reads entry by entry. -/
theorem rsqrt_apply {s : Shape} {φ : FTy} (a : FVec Ideal s φ) (i : s.Idx) : rsqrt a i = Ideal.rsqrt (a i) := rfl

/-- The block `k0_pay1` that the input-projection kernel `cc0__in_proj_kernel` stores is the specification's projection of the loaded blocks, entry by entry. -/
theorem pay_proj (v0 : Vec Ideal S2000x160 .f32) (v3 : Vec Ideal S160x128 .f32) (v6 : Vec Ideal S1x128 .f32) (p : Fin 2000) (q : Fin 128) :
    k0_pay1 (F := Ideal) v0 v3 v6 (ix2 p q) = Cert.Spec.projAt v0 v3 (fun j => v6 (ix2 0 j)) p q := by
  unfold k0_pay1 Cert.Spec.projAt
  simp only [maximumf_apply, addf_apply, broadcast_apply, dot2000x160_apply, bcast_row_apply, shapeCast_self, truncf_apply]
  rw [Ideal.ofBits_def, Ideal.ofBits_zero_f32]

/-- The block `k1_pay1` that the edge-message kernel `cc1__msg_kernel` stores is the specification's message of the loaded blocks, entry by entry. -/
theorem pay_msg1 (v0 : Vec Ideal S5000x128 .f32) (v3 : Vec Ideal S5000x32 .f32) (v6 : Vec Ideal S128x128 .f32) (v9 : Vec Ideal S32x128 .f32) (p : Fin 5000) (q : Fin 128) :
    k1_pay1 (F := Ideal) v0 v3 v6 v9 (ix2 p q) = Cert.Spec.msgAt v0 v3 v6 v9 p q := by
  unfold k1_pay1 Cert.Spec.msgAt
  simp only [addf_apply, dot5000x128_apply, dot5000x32_apply, shapeCast_self, truncf_apply]

/-- The block `k3_pay1` that the edge-message kernel `cc3__msg_kernel` stores is the specification's message of the loaded blocks, entry by entry. -/
theorem pay_msg3 (v0 : Vec Ideal S5000x128 .f32) (v3 : Vec Ideal S5000x32 .f32) (v6 : Vec Ideal S128x128 .f32) (v9 : Vec Ideal S32x128 .f32) (p : Fin 5000) (q : Fin 128) :
    k3_pay1 (F := Ideal) v0 v3 v6 v9 (ix2 p q) = Cert.Spec.msgAt v0 v3 v6 v9 p q := by
  unfold k3_pay1 Cert.Spec.msgAt
  simp only [addf_apply, dot5000x128_apply, dot5000x32_apply, shapeCast_self, truncf_apply]

/-- The block `k2_pay1` of the node-update kernel `cc2__self_ln_kernel` is the specification's update of the loaded blocks, entry by entry: the
    rectified row `y` first, then its mean `(∑ⱼ y[j]) / 128`, the centred row, its variance, and the normalised row
    through the affine map. The lane sums are read one at a time, outermost first: the variance's sum has the mean's
    inside it. -/
theorem pay_upd2 (v0 : Vec Ideal S2000x128 .f32) (v3 : Vec Ideal S128x128 .f32) (v7 : Vec Ideal S1x128 .f32) (v11 : Vec Ideal S2000x128 .f32) (v32 v36 : Vec Ideal S1x128 .f32) (p : Fin 2000) (q : Fin 128) :
    k2_pay1 (F := Ideal) v0 v3 v7 v11 v32 v36 (ix2 p q) = Cert.Spec.updAt v0 v11 v3 (fun j => v7 (ix2 0 j)) (fun j => v32 (ix2 0 j)) (fun j => v36 (ix2 0 j)) p q := by
  unfold k2_pay1 Cert.Spec.updAt Cert.Spec.normAt Cert.Spec.var Cert.Spec.mean Cert.Spec.preAt Cert.Spec.rowLen Cert.Spec.eps
  simp only [maximumf_apply, addf_apply, subf_apply, mulf_apply, divf_apply, rsqrt_apply, broadcast_apply, dot2000x128_apply,
    bcast_row_apply, bcast_col_apply, cast_col_apply, shapeCast_self, truncf_apply]
  rw [laneSum_apply, laneSum_apply]
  simp only [maximumf_apply, addf_apply, subf_apply, mulf_apply, divf_apply, rsqrt_apply, broadcast_apply, dot2000x128_apply,
    bcast_row_apply, bcast_col_apply, cast_col_apply, shapeCast_self, truncf_apply]
  rw [laneSum_apply]
  simp only [maximumf_apply, addf_apply, broadcast_apply, dot2000x128_apply, bcast_row_apply, shapeCast_self, truncf_apply,
    Ideal.ofBits_def, Ideal.ofBits_zero_f32]

/-- The block `k4_pay1` of the node-update kernel `cc4__self_ln_kernel` is the specification's update of the loaded blocks, entry by entry: the
    rectified row `y` first, then its mean `(∑ⱼ y[j]) / 128`, the centred row, its variance, and the normalised row
    through the affine map. The lane sums are read one at a time, outermost first: the variance's sum has the mean's
    inside it. -/
theorem pay_upd4 (v0 : Vec Ideal S2000x128 .f32) (v3 : Vec Ideal S128x128 .f32) (v7 : Vec Ideal S1x128 .f32) (v11 : Vec Ideal S2000x128 .f32) (v32 v36 : Vec Ideal S1x128 .f32) (p : Fin 2000) (q : Fin 128) :
    k4_pay1 (F := Ideal) v0 v3 v7 v11 v32 v36 (ix2 p q) = Cert.Spec.updAt v0 v11 v3 (fun j => v7 (ix2 0 j)) (fun j => v32 (ix2 0 j)) (fun j => v36 (ix2 0 j)) p q := by
  unfold k4_pay1 Cert.Spec.updAt Cert.Spec.normAt Cert.Spec.var Cert.Spec.mean Cert.Spec.preAt Cert.Spec.rowLen Cert.Spec.eps
  simp only [maximumf_apply, addf_apply, subf_apply, mulf_apply, divf_apply, rsqrt_apply, broadcast_apply, dot2000x128_apply,
    bcast_row_apply, bcast_col_apply, cast_col_apply, shapeCast_self, truncf_apply]
  rw [laneSum_apply, laneSum_apply]
  simp only [maximumf_apply, addf_apply, subf_apply, mulf_apply, divf_apply, rsqrt_apply, broadcast_apply, dot2000x128_apply,
    bcast_row_apply, bcast_col_apply, cast_col_apply, shapeCast_self, truncf_apply]
  rw [laneSum_apply]
  simp only [maximumf_apply, addf_apply, broadcast_apply, dot2000x128_apply, bcast_row_apply, shapeCast_self, truncf_apply,
    Ideal.ofBits_def, Ideal.ofBits_zero_f32]

end Cert.Payloads

end
-- ==== Proof.Blocks.lean ====
/-
  An index of a matrix is determined by its two coordinates: a function of the index read at the pair (r, q) is the
  function read at any index whose coordinates are r and q. (Used to read a whole-array function where a block's
  element sits in the array.)
-/
import Idealize.ShloMosaic.Lib.ValueIdx

namespace Cert.Blocks

open Idealize.ShloMosaic Idealize.ShloMosaic.ValueIdx

theorem at_ix2 {n0 n1 : Nat} {α : Type} (G : (⟨2, ![n0, n1]⟩ : Shape).Idx → α) (r : Fin n0) (q : Fin n1)
    (i : (⟨2, ![n0, n1]⟩ : Shape).Idx) (h0 : (i 0).val = r.val) (h1 : (i 1).val = q.val) : G (ix2 r q) = G i := by
  have e : ix2 r q = i := by
    funext a
    match a with
    | ⟨0, _⟩ => exact Fin.ext h0.symm
    | ⟨1, _⟩ => exact Fin.ext h1.symm
  rw [e]

end Cert.Blocks
-- ==== Proof.Region0.lean ====
/-
  Region 0, the input projection, from blocks to the whole array.

  The grid has 25 points. Point t reads rows [2000·t, 2000·t + 2000) of the concatenated features (all 160 columns), the
  whole weight matrix and the whole bias row, and writes back rows [2000·t, 2000·t + 2000) of the output. An entry of the
  projection depends only on its own row of the features, so the block that point t writes back is the restriction to those
  rows of ONE function of the arrays the region was entered with: the projection of every row. The 25 blocks tile the 50000
  rows, hence the output array ends holding that function.
-/
import proofs.«143730_j55190329753873_2_alg».proof.Proof.Gen.KernelIdeal.Frame
import proofs.«143730_j55190329753873_2_alg».proof.Proof.Payloads
import proofs.«143730_j55190329753873_2_alg».proof.Proof.Blocks
import Idealize.ShloMosaic.Lib.Pipeline.Value

set_option maxRecDepth 16384

noncomputable section

namespace Cert.KernelIdeal.Arr0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature and output windows move down the rows with the point, the weight and bias
    windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the body's result, from blocks that are known where it reads them: the projection's entry of the row the
    block's row is. -/
theorem entry (x0 : Vec Ideal S2000x160 .f32) (x1 : Vec Ideal S160x128 .f32) (x2 : Vec Ideal S1x128 .f32)
    (X : Cert.Spec.Mat 50000 160) (W : Cert.Spec.Mat 160 128) (B : Fin 128 → EReal)
    (r : Fin 50000) (y : S2000x128.Idx) (p : Fin 2000) (q : Fin 128) (hy : y = ix2 p q)
    (h0 : ∀ k : Fin 160, x0 (ix2 p k) = X (ix2 r k)) (h1 : ∀ k : Fin 160, x1 (ix2 k q) = W (ix2 k q))
    (h2 : x2 (ix2 0 q) = B q) :
    k0_pay1 (F := Ideal) x0 x1 x2 y = Cert.Spec.projAt X W B r q := by
  subst hy
  rw [Cert.Payloads.pay_proj]
  unfold Cert.Spec.projAt
  simp only [h0, h1, h2]

/-- What point t writes back is block t of the projection of the arrays the region was entered with. -/
theorem flushed_eq (c : Dev nD) (t : Fin cfg0.N) :
    (dat0 V c).flushed 3 t = ((cfg0.win 3).blk t).view.read (Elt Ideal)
      (Cert.Spec.proj (V c main_v11) (V c main_arg5) (fun j => V c main_v12 (ix2 0 j))) := by
  show (cfg0.win 3).cut (grid0.coords t) ((dat0 V c).after 3 t) = _
  rw [after0_3]
  unfold out0_3
  rw [View.canon_unit_zero hz]
  simp only [View.ld_unit_zero (S := S2000x160) hz, View.ld_unit_zero (S := S160x128) hz, View.ld_unit_zero (S := S1x128) hz]
  obtain ⟨e0, e1, e2, e3, e4, e5, e6, e7⟩ := idx_facts t
  have ht : t.val < 25 := N_0 ▸ t.isLt
  funext y
  have hy0 : (y 0).val < 2000 := (y 0).isLt
  have hr : t.val * 2000 + (y 0).val < 50000 := by omega
  refine (entry (iblk0 V c 0 t) (iblk0 V c 1 t) (iblk0 V c 2 t) (V c main_v11) (V c main_arg5)
    (fun j => V c main_v12 (ix2 0 j)) ⟨t.val * 2000 + (y 0).val, hr⟩ y (y 0) (y 1) (eq_ix2 y) ?_ ?_ ?_).trans ?_
  · intro k
    show V c main_v11 (((cfg0.win 0).blk t).view.emb (ix2 (y 0) k)) = V c main_v11 (ix2 ⟨t.val * 2000 + (y 0).val, hr⟩ k)
    refine congrArg _ (funext fun a => Fin.ext ?_)
    match a with
    | ⟨0, _⟩ => show win0_0.index t (0 : Fin 2) * 2000 + 1 * (y 0).val = t.val * 2000 + (y 0).val; omega
    | ⟨1, _⟩ => show win0_0.index t (1 : Fin 2) * 160 + 1 * k.val = k.val; omega
  · intro k
    show V c main_arg5 (((cfg0.win 1).blk t).view.emb (ix2 k (y 1))) = V c main_arg5 (ix2 k (y 1))
    refine congrArg _ (funext fun a => Fin.ext ?_)
    match a with
    | ⟨0, _⟩ => show win0_1.index t (0 : Fin 2) * 160 + 1 * k.val = k.val; omega
    | ⟨1, _⟩ => show win0_1.index t (1 : Fin 2) * 128 + 1 * (y 1).val = (y 1).val; omega
  · show V c main_v12 (((cfg0.win 2).blk t).view.emb (ix2 0 (y 1))) = V c main_v12 (ix2 0 (y 1))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (y 1).val = (y 1).val; omega
  · exact (Cert.Spec.proj_ix2 (V c main_v11) (V c main_arg5) (fun j => V c main_v12 (ix2 0 j)) ⟨t.val * 2000 + (y 0).val, hr⟩ (y 1)).symm.trans
      (Cert.Blocks.at_ix2 (Cert.Spec.proj (V c main_v11) (V c main_arg5) (fun j => V c main_v12 (ix2 0 j))) ⟨t.val * 2000 + (y 0).val, hr⟩ (y 1)
        (((cfg0.win 3).blk t).view.emb y)
        (by show win0_3.index t (0 : Fin 2) * 2000 + 1 * (y 0).val = t.val * 2000 + (y 0).val; omega)
        (by show win0_3.index t (1 : Fin 2) * 128 + 1 * (y 1).val = (y 1).val; omega))

/-- An index of the output array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13).slice (win0_3.rect t)).set ↔ _
  rw [View.set_slice_whole, Rect.mem_set_unit]
  exact Iff.rfl

/-- Every row is in the block of the point numbered by the row divided by 2000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk]
  obtain ⟨e0, e1, e2, e3, e4, e5, e6, e7⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- The output array after all 25 points: the projection of the arrays the region was entered with. -/
theorem final (c : Dev nD) :
    (dat0 V c).arrAt 3 cfg0.N = Cert.Spec.proj (V c main_v11) (V c main_arg5) (fun j => V c main_v12 (ix2 0 j)) :=
  (dat0 V c).arrAt_eq_of_cover 3 _ (fun t _ => flushed_eq V c t) cover

end Cert.KernelIdeal.Arr0

end
-- ==== Proof.Region1.lean ====
/-
  Region 1, the edge messages, from blocks to the whole array.

  The grid has 160 points. Point t reads rows [5000·t, 5000·t + 5000) of the gathered source rows (all 128 columns) and
  of the gathered relation rows (all 32 columns), the whole neighbour weight matrix and the whole relation weight matrix,
  and writes back rows [5000·t, 5000·t + 5000) of the output. An entry of the message depends only on its own row of the
  two gathered arrays, so the block that point t writes back is the restriction to those rows of ONE function of the
  arrays the region was entered with: the message of every edge. The 160 blocks tile the 800000 rows, hence the output
  array ends holding that function.
-/
import proofs.«143730_j55190329753873_2_alg».proof.Proof.Gen.KernelIdeal.Frame
import proofs.«143730_j55190329753873_2_alg».proof.Proof.Payloads
import proofs.«143730_j55190329753873_2_alg».proof.Proof.Blocks
import Idealize.ShloMosaic.Lib.Pipeline.Value

set_option maxRecDepth 16384

noncomputable section

namespace Cert.KernelIdeal.Arr1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two gathered windows and the output window move down the rows with the point, the
    two weight windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of the body's result, from blocks that are known where it reads them: row `p` of the two gathered blocks
    and column `q` of the two weight blocks. It is the message's entry of the row the block's row is. -/
theorem entry (x0 : Vec Ideal S5000x128 .f32) (x1 : Vec Ideal S5000x32 .f32) (x2 : Vec Ideal S128x128 .f32) (x3 : Vec Ideal S32x128 .f32)
    (HS : Cert.Spec.Mat 800000 128) (RG : Cert.Spec.Mat 800000 32) (WN : Cert.Spec.Mat 128 128) (WR : Cert.Spec.Mat 32 128)
    (r : Fin 800000) (y : S5000x128.Idx) (p : Fin 5000) (q : Fin 128) (hy : y = ix2 p q)
    (h0 : ∀ k : Fin 128, x0 (ix2 p k) = HS (ix2 r k)) (h1 : ∀ k : Fin 32, x1 (ix2 p k) = RG (ix2 r k))
    (h2 : ∀ k : Fin 128, x2 (ix2 k q) = WN (ix2 k q)) (h3 : ∀ k : Fin 32, x3 (ix2 k q) = WR (ix2 k q)) :
    k1_pay1 (F := Ideal) x0 x1 x2 x3 y = Cert.Spec.msgAt HS RG WN WR r q := by
  subst hy
  rw [Cert.Payloads.pay_msg1]
  unfold Cert.Spec.msgAt
  simp only [h0, h1, h2, h3]

/-- What point t writes back is block t of the messages of the arrays the region was entered with. -/
theorem flushed_eq (c : Dev nD) (t : Fin cfg1.N) :
    (dat1 V c).flushed 4 t = ((cfg1.win 4).blk t).view.read (Elt Ideal)
      (Cert.Spec.msg (V c main_v32) (V c main_v41) (V c main_v43) (V c main_v45)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x32) hz, View.ld_unit_zero (S := S128x128) hz,
    View.ld_unit_zero (S := S32x128) hz]
  obtain ⟨e0, e1, e2, e3, e4, e5, e6, e7, e8, e9⟩ := idx_facts t
  have ht : t.val < 160 := N_1 ▸ t.isLt
  funext y
  have hy0 : (y 0).val < 5000 := (y 0).isLt
  have hr : t.val * 5000 + (y 0).val < 800000 := by omega
  refine (entry (iblk1 V c 0 t) (iblk1 V c 1 t) (iblk1 V c 2 t) (iblk1 V c 3 t) (V c main_v32) (V c main_v41) (V c main_v43) (V c main_v45)
    ⟨t.val * 5000 + (y 0).val, hr⟩ y (y 0) (y 1) (eq_ix2 y) ?_ ?_ ?_ ?_).trans ?_
  · intro k
    show V c main_v32 (((cfg1.win 0).blk t).view.emb (ix2 (y 0) k)) = V c main_v32 (ix2 ⟨t.val * 5000 + (y 0).val, hr⟩ k)
    refine congrArg _ (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 128 + 1 * k.val = k.val; omega
  · intro k
    show V c main_v41 (((cfg1.win 1).blk t).view.emb (ix2 (y 0) k)) = V c main_v41 (ix2 ⟨t.val * 5000 + (y 0).val, hr⟩ k)
    refine congrArg _ (funext fun a => Fin.ext ?_)
    match a with
    | ⟨0, _⟩ => show win1_1.index t (0 : Fin 2) * 5000 + 1 * (y 0).val = t.val * 5000 + (y 0).val; omega
    | ⟨1, _⟩ => show win1_1.index t (1 : Fin 2) * 32 + 1 * k.val = k.val; omega
  · intro k
    show V c main_v43 (((cfg1.win 2).blk t).view.emb (ix2 k (y 1))) = V c main_v43 (ix2 k (y 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (y 1).val = (y 1).val; omega
  · intro k
    show V c main_v45 (((cfg1.win 3).blk t).view.emb (ix2 k (y 1))) = V c main_v45 (ix2 k (y 1))
    refine congrArg _ (funext fun a => Fin.ext ?_)
    match a with
    | ⟨0, _⟩ => show win1_3.index t (0 : Fin 2) * 32 + 1 * k.val = k.val; omega
    | ⟨1, _⟩ => show win1_3.index t (1 : Fin 2) * 128 + 1 * (y 1).val = (y 1).val; omega
  · exact (Cert.Spec.msg_ix2 (V c main_v32) (V c main_v41) (V c main_v43) (V c main_v45) ⟨t.val * 5000 + (y 0).val, hr⟩ (y 1)).symm.trans
      (Cert.Blocks.at_ix2 (Cert.Spec.msg (V c main_v32) (V c main_v41) (V c main_v43) (V c main_v45)) ⟨t.val * 5000 + (y 0).val, hr⟩ (y 1)
        (((cfg1.win 4).blk t).view.emb y)
        (by show win1_4.index t (0 : Fin 2) * 5000 + 1 * (y 0).val = t.val * 5000 + (y 0).val; omega)
        (by show win1_4.index t (1 : Fin 2) * 128 + 1 * (y 1).val = (y 1).val; omega))

/-- An index of the output array is in point t's block iff each coordinate is in the block's range on its axis. -/
theorem mem_blk (t : Fin cfg1.N) (i : S800000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- Every row is in the block of the point numbered by the row divided by 5000. -/
theorem cover (i : S800000x128.Idx) : ∃ t : Fin cfg1.N, (cfg1.win 4).flush t = true ∧ i ∈ ((cfg1.win 4).blk t).view.set := by
  have hi0 : (i 0).val < 800000 := (i 0).isLt
  have hi1 : (i 1).val < 128 := (i 1).isLt
  have hN : cfg1.N = 160 := N_1
  refine ⟨⟨(i 0).val / 5000, by rw [hN]; omega⟩, flush1_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- The output array after all 160 points: the messages of the arrays the region was entered with. -/
theorem final (c : Dev nD) :
    (dat1 V c).arrAt 4 cfg1.N = Cert.Spec.msg (V c main_v32) (V c main_v41) (V c main_v43) (V c main_v45) :=
  (dat1 V c).arrAt_eq_of_cover 4 _ (fun t _ => flushed_eq V c t) cover

end Cert.KernelIdeal.Arr1

end
-- ==== Proof.Region2.lean ====
/-
  Region 2, the node update, from blocks to the whole array.

  The grid has 25 points. Point t reads rows [2000·t, 2000·t + 2000) of the node rows and of the aggregated messages
  (all 128 columns of each), the whole self weight matrix and the whole bias, gain and shift rows, and writes back rows
  [2000·t, 2000·t + 2000) of the output. An entry of the update in row r and column q depends on the WHOLE row r of the
  node rows and of the aggregated messages (the row's mean and variance run over all 128 columns), on the whole weight
  matrix and bias row, and on entry q of the gain and of the shift; on no other row. So the block that point t writes back
  is the restriction to its rows of ONE function of the arrays the region was entered with: the update of every row. The
  25 blocks tile the 50000 rows, hence the output array ends holding that function.
-/
import proofs.«143730_j55190329753873_2_alg».proof.Proof.Gen.KernelIdeal.Frame
import proofs.«143730_j55190329753873_2_alg».proof.Proof.Payloads
import proofs.«143730_j55190329753873_2_alg».proof.Proof.Blocks
import Idealize.ShloMosaic.Lib.Pipeline.Value

set_option maxRecDepth 16384

noncomputable section

namespace Cert.KernelIdeal.Arr2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node, aggregate and output windows move down the rows with the point, the weight,
    bias, gain and shift windows stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One entry of the body's result, from blocks that are known where it reads them: the whole row `p` of the node block
    and of the aggregate block, the whole weight block and bias row, and entry `q` of the gain and shift rows. It is the
    update's entry of the row the block's row is. The body takes the blocks in the order node, weights, bias, aggregate,
    gain, shift. -/
theorem entry (x0 x1 : Vec Ideal S2000x128 .f32) (x2 : Vec Ideal S128x128 .f32) (x3 x4 x5 : Vec Ideal S1x128 .f32)
    (H AG : Cert.Spec.Mat 50000 128) (WS : Cert.Spec.Mat 128 128) (B G BETA : Fin 128 → EReal)
    (r : Fin 50000) (y : S2000x128.Idx) (p : Fin 2000) (q : Fin 128) (hy : y = ix2 p q)
    (h0 : ∀ k : Fin 128, x0 (ix2 p k) = H (ix2 r k)) (h1 : ∀ j : Fin 128, x1 (ix2 p j) = AG (ix2 r j))
    (h2 : ∀ k j : Fin 128, x2 (ix2 k j) = WS (ix2 k j)) (h3 : ∀ j : Fin 128, x3 (ix2 0 j) = B j)
    (h4 : x4 (ix2 0 q) = G q) (h5 : x5 (ix2 0 q) = BETA q) :
    k2_pay1 (F := Ideal) x0 x2 x3 x1 x4 x5 y = Cert.Spec.updAt H AG WS B G BETA r q := by
  subst hy
  rw [Cert.Payloads.pay_upd2]
  unfold Cert.Spec.updAt Cert.Spec.normAt Cert.Spec.var Cert.Spec.mean Cert.Spec.preAt
  simp only [h0, h1, h2, h3, h4, h5]

/-- What point t writes back is block t of the update of the arrays the region was entered with. -/
theorem flushed_eq (c : Dev nD) (t : Fin cfg2.N) :
    (dat2 V c).flushed 6 t = ((cfg2.win 6).blk t).view.read (Elt Ideal)
      (Cert.Spec.upd (V c main_v13) (V c main_v51) (V c main_v53) (fun j => V c main_v60 (ix2 0 j)) (fun j => V c main_v61 (ix2 0 j)) (fun j => V c main_v62 (ix2 0 j))) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx_facts t
  have ht : t.val < 25 := N_2 ▸ t.isLt
  funext y
  have hy0 : (y 0).val < 2000 := (y 0).isLt
  have hr : t.val * 2000 + (y 0).val < 50000 := by omega
  refine (entry (iblk2 V c 0 t) (iblk2 V c 1 t) (iblk2 V c 2 t) (iblk2 V c 3 t) (iblk2 V c 4 t) (iblk2 V c 5 t)
    (V c main_v13) (V c main_v51) (V c main_v53) (fun j => V c main_v60 (ix2 0 j)) (fun j => V c main_v61 (ix2 0 j)) (fun j => V c main_v62 (ix2 0 j))
    ⟨t.val * 2000 + (y 0).val, hr⟩ y (y 0) (y 1) (eq_ix2 y) ?_ ?_ ?_ ?_ ?_ ?_).trans ?_
  · intro k
    show V c main_v13 (((cfg2.win 0).blk t).view.emb (ix2 (y 0) k)) = V c main_v13 (ix2 ⟨t.val * 2000 + (y 0).val, hr⟩ k)
    refine congrArg _ (funext fun a => Fin.ext ?_)
    match a with
    | ⟨0, _⟩ => show win2_0.index t (0 : Fin 2) * 2000 + 1 * (y 0).val = t.val * 2000 + (y 0).val; omega
    | ⟨1, _⟩ => show win2_0.index t (1 : Fin 2) * 128 + 1 * k.val = k.val; omega
  · intro j
    show V c main_v51 (((cfg2.win 1).blk t).view.emb (ix2 (y 0) j)) = V c main_v51 (ix2 ⟨t.val * 2000 + (y 0).val, hr⟩ j)
    refine congrArg _ (funext fun a => Fin.ext ?_)
    match a with
    | ⟨0, _⟩ => show win2_1.index t (0 : Fin 2) * 2000 + 1 * (y 0).val = t.val * 2000 + (y 0).val; omega
    | ⟨1, _⟩ => show win2_1.index t (1 : Fin 2) * 128 + 1 * j.val = j.val; omega
  · intro k j
    show V c main_v53 (((cfg2.win 2).blk t).view.emb (ix2 k j)) = V c main_v53 (ix2 k j)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * j.val = j.val; omega
  · intro j
    show V c main_v60 (((cfg2.win 3).blk t).view.emb (ix2 0 j)) = V c main_v60 (ix2 0 j)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * j.val = j.val; omega
  · show V c main_v61 (((cfg2.win 4).blk t).view.emb (ix2 0 (y 1))) = V c main_v61 (ix2 0 (y 1))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (y 1).val = (y 1).val; omega
  · show V c main_v62 (((cfg2.win 5).blk t).view.emb (ix2 0 (y 1))) = V c main_v62 (ix2 0 (y 1))
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * (y 1).val = (y 1).val; omega
  · exact (Cert.Spec.upd_ix2 (V c main_v13) (V c main_v51) (V c main_v53) (fun j => V c main_v60 (ix2 0 j)) (fun j => V c main_v61 (ix2 0 j)) (fun j => V c main_v62 (ix2 0 j)) ⟨t.val * 2000 + (y 0).val, hr⟩ (y 1)).symm.trans
      (Cert.Blocks.at_ix2 (Cert.Spec.upd (V c main_v13) (V c main_v51) (V c main_v53) (fun j => V c main_v60 (ix2 0 j)) (fun j => V c main_v61 (ix2 0 j)) (fun j => V c main_v62 (ix2 0 j))) ⟨t.val * 2000 + (y 0).val, hr⟩ (y 1)
        (((cfg2.win 6).blk t).view.emb y)
        (by show win2_6.index t (0 : Fin 2) * 2000 + 1 * (y 0).val = t.val * 2000 + (y 0).val; omega)
        (by show win2_6.index t (1 : Fin 2) * 128 + 1 * (y 1).val = (y 1).val; omega))

/-- An index of the output array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v63).slice (win2_6.rect t)).set ↔ _
  rw [View.set_slice_whole, Rect.mem_set_unit]
  exact Iff.rfl

/-- Every row is in the block of the point numbered by the row divided by 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_6 _, ?_⟩
  rw [mem_blk]
  obtain ⟨e0, e1, e2, e3, e4, e5, e6, e7, e8, e9, e10, e11, e12, e13⟩ := idx_facts ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e12]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e13]; omega

/-- The output array after all 25 points: the update of the arrays the region was entered with. -/
theorem final (c : Dev nD) :
    (dat2 V c).arrAt 6 cfg2.N = Cert.Spec.upd (V c main_v13) (V c main_v51) (V c main_v53) (fun j => V c main_v60 (ix2 0 j)) (fun j => V c main_v61 (ix2 0 j)) (fun j => V c main_v62 (ix2 0 j)) :=
  (dat2 V c).arrAt_eq_of_cover 6 _ (fun t _ => flushed_eq V c t) cover

end Cert.KernelIdeal.Arr2

end
-- ==== Proof.Region3.lean ====
/-
  Region 3, the edge messages, from blocks to the whole array.

  The grid has 160 points. Point t reads rows [5000·t, 5000·t + 5000) of the gathered source rows (all 128 columns) and
  of the gathered relation rows (all 32 columns), the whole neighbour weight matrix and the whole relation weight matrix,
  and writes back rows [5000·t, 5000·t + 5000) of the output. An entry of the message depends only on its own row of the
  two gathered arrays, so the block that point t writes back is the restriction to those rows of ONE function of the
  arrays the region was entered with: the message of every edge. The 160 blocks tile the 800000 rows, hence the output
  array ends holding that function.
-/
import proofs.«143730_j55190329753873_2_alg».proof.Proof.Gen.KernelIdeal.Frame
import proofs.«143730_j55190329753873_2_alg».proof.Proof.Payloads
import proofs.«143730_j55190329753873_2_alg».proof.Proof.Blocks
import Idealize.ShloMosaic.Lib.Pipeline.Value

set_option maxRecDepth 16384

noncomputable section

namespace Cert.KernelIdeal.Arr3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two gathered windows and the output window move down the rows with the point, the
    two weight windows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One entry of the body's result, from blocks that are known where it reads them: row `p` of the two gathered blocks
    and column `q` of the two weight blocks. It is the message's entry of the row the block's row is. -/
theorem entry (x0 : Vec Ideal S5000x128 .f32) (x1 : Vec Ideal S5000x32 .f32) (x2 : Vec Ideal S128x128 .f32) (x3 : Vec Ideal S32x128 .f32)
    (HS : Cert.Spec.Mat 800000 128) (RG : Cert.Spec.Mat 800000 32) (WN : Cert.Spec.Mat 128 128) (WR : Cert.Spec.Mat 32 128)
    (r : Fin 800000) (y : S5000x128.Idx) (p : Fin 5000) (q : Fin 128) (hy : y = ix2 p q)
    (h0 : ∀ k : Fin 128, x0 (ix2 p k) = HS (ix2 r k)) (h1 : ∀ k : Fin 32, x1 (ix2 p k) = RG (ix2 r k))
    (h2 : ∀ k : Fin 128, x2 (ix2 k q) = WN (ix2 k q)) (h3 : ∀ k : Fin 32, x3 (ix2 k q) = WR (ix2 k q)) :
    k3_pay1 (F := Ideal) x0 x1 x2 x3 y = Cert.Spec.msgAt HS RG WN WR r q := by
  subst hy
  rw [Cert.Payloads.pay_msg3]
  unfold Cert.Spec.msgAt
  simp only [h0, h1, h2, h3]

/-- What point t writes back is block t of the messages of the arrays the region was entered with. -/
theorem flushed_eq (c : Dev nD) (t : Fin cfg3.N) :
    (dat3 V c).flushed 4 t = ((cfg3.win 4).blk t).view.read (Elt Ideal)
      (Cert.Spec.msg (V c main_v70) (V c main_v79) (V c main_v81) (V c main_v83)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x32) hz, View.ld_unit_zero (S := S128x128) hz,
    View.ld_unit_zero (S := S32x128) hz]
  obtain ⟨e0, e1, e2, e3, e4, e5, e6, e7, e8, e9⟩ := idx_facts t
  have ht : t.val < 160 := N_3 ▸ t.isLt
  funext y
  have hy0 : (y 0).val < 5000 := (y 0).isLt
  have hr : t.val * 5000 + (y 0).val < 800000 := by omega
  refine (entry (iblk3 V c 0 t) (iblk3 V c 1 t) (iblk3 V c 2 t) (iblk3 V c 3 t) (V c main_v70) (V c main_v79) (V c main_v81) (V c main_v83)
    ⟨t.val * 5000 + (y 0).val, hr⟩ y (y 0) (y 1) (eq_ix2 y) ?_ ?_ ?_ ?_).trans ?_
  · intro k
    show V c main_v70 (((cfg3.win 0).blk t).view.emb (ix2 (y 0) k)) = V c main_v70 (ix2 ⟨t.val * 5000 + (y 0).val, hr⟩ k)
    refine congrArg _ (funext fun a => Fin.ext ?_)
    match a with
    | ⟨0, _⟩ => show win3_0.index t (0 : Fin 2) * 5000 + 1 * (y 0).val = t.val * 5000 + (y 0).val; omega
    | ⟨1, _⟩ => show win3_0.index t (1 : Fin 2) * 128 + 1 * k.val = k.val; omega
  · intro k
    show V c main_v79 (((cfg3.win 1).blk t).view.emb (ix2 (y 0) k)) = V c main_v79 (ix2 ⟨t.val * 5000 + (y 0).val, hr⟩ k)
    refine congrArg _ (funext fun a => Fin.ext ?_)
    match a with
    | ⟨0, _⟩ => show win3_1.index t (0 : Fin 2) * 5000 + 1 * (y 0).val = t.val * 5000 + (y 0).val; omega
    | ⟨1, _⟩ => show win3_1.index t (1 : Fin 2) * 32 + 1 * k.val = k.val; omega
  · intro k
    show V c main_v81 (((cfg3.win 2).blk t).view.emb (ix2 k (y 1))) = V c main_v81 (ix2 k (y 1))
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * (y 1).val = (y 1).val; omega
  · intro k
    show V c main_v83 (((cfg3.win 3).blk t).view.emb (ix2 k (y 1))) = V c main_v83 (ix2 k (y 1))
    refine congrArg _ (funext fun a => Fin.ext ?_)
    match a with
    | ⟨0, _⟩ => show win3_3.index t (0 : Fin 2) * 32 + 1 * k.val = k.val; omega
    | ⟨1, _⟩ => show win3_3.index t (1 : Fin 2) * 128 + 1 * (y 1).val = (y 1).val; omega
  · exact (Cert.Spec.msg_ix2 (V c main_v70) (V c main_v79) (V c main_v81) (V c main_v83) ⟨t.val * 5000 + (y 0).val, hr⟩ (y 1)).symm.trans
      (Cert.Blocks.at_ix2 (Cert.Spec.msg (V c main_v70) (V c main_v79) (V c main_v81) (V c main_v83)) ⟨t.val * 5000 + (y 0).val, hr⟩ (y 1)
        (((cfg3.win 4).blk t).view.emb y)
        (by show win3_4.index t (0 : Fin 2) * 5000 + 1 * (y 0).val = t.val * 5000 + (y 0).val; omega)
        (by show win3_4.index t (1 : Fin 2) * 128 + 1 * (y 1).val = (y 1).val; omega))

/-- An index of the output array is in point t's block iff each coordinate is in the block's range on its axis. -/
theorem mem_blk (t : Fin cfg3.N) (i : S800000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v84).slice (win3_4.rect t)).set ↔ _
  rw [View.set_slice_whole, Rect.mem_set_unit]
  exact Iff.rfl

/-- Every row is in the block of the point numbered by the row divided by 5000. -/
theorem cover (i : S800000x128.Idx) : ∃ t : Fin cfg3.N, (cfg3.win 4).flush t = true ∧ i ∈ ((cfg3.win 4).blk t).view.set := by
  have hi0 : (i 0).val < 800000 := (i 0).isLt
  have hi1 : (i 1).val < 128 := (i 1).isLt
  have hN : cfg3.N = 160 := N_3
  refine ⟨⟨(i 0).val / 5000, by rw [hN]; omega⟩, flush3_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [e8]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e9]; omega

/-- The output array after all 160 points: the messages of the arrays the region was entered with. -/
theorem final (c : Dev nD) :
    (dat3 V c).arrAt 4 cfg3.N = Cert.Spec.msg (V c main_v70) (V c main_v79) (V c main_v81) (V c main_v83) :=
  (dat3 V c).arrAt_eq_of_cover 4 _ (fun t _ => flushed_eq V c t) cover

end Cert.KernelIdeal.Arr3

end
-- ==== Proof.Region4.lean ====
/-
  Region 4, the node update, from blocks to the whole array.

  The grid has 25 points. Point t reads rows [2000·t, 2000·t + 2000) of the node rows and of the aggregated messages
  (all 128 columns of each), the whole self weight matrix and the whole bias, gain and shift rows, and writes back rows
  [2000·t, 2000·t + 2000) of the output. An entry of the update in row r and column q depends on the WHOLE row r of the
  node rows and of the aggregated messages (the row's mean and variance run over all 128 columns), on the whole weight
  matrix and bias row, and on entry q of the gain and of the shift; on no other row. So the block that point t writes back
  is the restriction to its rows of ONE function of the arrays the region was entered with: the update of every row. The
  25 blocks tile the 50000 rows, hence the output array ends holding that function.
-/
import proofs.«143730_j55190329753873_2_alg».proof.Proof.Gen.KernelIdeal.Frame
import proofs.«143730_j55190329753873_2_alg».proof.Proof.Payloads
import proofs.«143730_j55190329753873_2_alg».proof.Proof.Blocks
import Idealize.ShloMosaic.Lib.Pipeline.Value

set_option maxRecDepth 16384

noncomputable section

namespace Cert.KernelIdeal.Arr4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node, aggregate and output windows move down the rows with the point, the weight,
    bias, gain and shift windows stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- One entry of the body's result, from blocks that are known where it reads them: the whole row `p` of the node block
    and of the aggregate block, the whole weight block and bias row, and entry `q` of the gain and shift rows. It is the
    update's entry of the row the block's row is. The body takes the blocks in the order node, weights, bias, aggregate,
    gain, shift. -/
theorem entry (x0 x1 : Vec Ideal S2000x128 .f32) (x2 : Vec Ideal S128x128 .f32) (x3 x4 x5 : Vec Ideal S1x128 .f32)
    (H AG : Cert.Spec.Mat 50000 128) (WS : Cert.Spec.Mat 128 128) (B G BETA : Fin 128 → EReal)
    (r : Fin 50000) (y : S2000x128.Idx) (p : Fin 2000) (q : Fin 128) (hy : y = ix2 p q)
    (h0 : ∀ k : Fin 128, x0 (ix2 p k) = H (ix2 r k)) (h1 : ∀ j : Fin 128, x1 (ix2 p j) = AG (ix2 r j))
    (h2 : ∀ k j : Fin 128, x2 (ix2 k j) = WS (ix2 k j)) (h3 : ∀ j : Fin 128, x3 (ix2 0 j) = B j)
    (h4 : x4 (ix2 0 q) = G q) (h5 : x5 (ix2 0 q) = BETA q) :
    k4_pay1 (F := Ideal) x0 x2 x3 x1 x4 x5 y = Cert.Spec.updAt H AG WS B G BETA r q := by
  subst hy
  rw [Cert.Payloads.pay_upd4]
  unfold Cert.Spec.updAt Cert.Spec.normAt Cert.Spec.var Cert.Spec.mean Cert.Spec.preAt
  simp only [h0, h1, h2, h3, h4, h5]

/-- What point t writes back is block t of the update of the arrays the region was entered with. -/
theorem flushed_eq (c : Dev nD) (t : Fin cfg4.N) :
    (dat4 V c).flushed 6 t = ((cfg4.win 6).blk t).view.read (Elt Ideal)
      (Cert.Spec.upd (V c main_v63) (V c main_v89) (V c main_v91) (fun j => V c main_v98 (ix2 0 j)) (fun j => V c main_v99 (ix2 0 j)) (fun j => V c main_v100 (ix2 0 j))) := by
  show (cfg4.win 6).cut (grid4.coords t) ((dat4 V c).after 6 t) = _
  rw [after4_6]
  unfold out4_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx_facts t
  have ht : t.val < 25 := N_4 ▸ t.isLt
  funext y
  have hy0 : (y 0).val < 2000 := (y 0).isLt
  have hr : t.val * 2000 + (y 0).val < 50000 := by omega
  refine (entry (iblk4 V c 0 t) (iblk4 V c 1 t) (iblk4 V c 2 t) (iblk4 V c 3 t) (iblk4 V c 4 t) (iblk4 V c 5 t)
    (V c main_v63) (V c main_v89) (V c main_v91) (fun j => V c main_v98 (ix2 0 j)) (fun j => V c main_v99 (ix2 0 j)) (fun j => V c main_v100 (ix2 0 j))
    ⟨t.val * 2000 + (y 0).val, hr⟩ y (y 0) (y 1) (eq_ix2 y) ?_ ?_ ?_ ?_ ?_ ?_).trans ?_
  · intro k
    show V c main_v63 (((cfg4.win 0).blk t).view.emb (ix2 (y 0) k)) = V c main_v63 (ix2 ⟨t.val * 2000 + (y 0).val, hr⟩ k)
    refine congrArg _ (funext fun a => Fin.ext ?_)
    match a with
    | ⟨0, _⟩ => show win4_0.index t (0 : Fin 2) * 2000 + 1 * (y 0).val = t.val * 2000 + (y 0).val; omega
    | ⟨1, _⟩ => show win4_0.index t (1 : Fin 2) * 128 + 1 * k.val = k.val; omega
  · intro j
    show V c main_v89 (((cfg4.win 1).blk t).view.emb (ix2 (y 0) j)) = V c main_v89 (ix2 ⟨t.val * 2000 + (y 0).val, hr⟩ j)
    refine congrArg _ (funext fun a => Fin.ext ?_)
    match a with
    | ⟨0, _⟩ => show win4_1.index t (0 : Fin 2) * 2000 + 1 * (y 0).val = t.val * 2000 + (y 0).val; omega
    | ⟨1, _⟩ => show win4_1.index t (1 : Fin 2) * 128 + 1 * j.val = j.val; omega
  · intro k j
    show V c main_v91 (((cfg4.win 2).blk t).view.emb (ix2 k j)) = V c main_v91 (ix2 k j)
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * j.val = j.val; omega
  · intro j
    show V c main_v98 (((cfg4.win 3).blk t).view.emb (ix2 0 j)) = V c main_v98 (ix2 0 j)
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * j.val = j.val; omega
  · show V c main_v99 (((cfg4.win 4).blk t).view.emb (ix2 0 (y 1))) = V c main_v99 (ix2 0 (y 1))
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * (y 1).val = (y 1).val; omega
  · show V c main_v100 (((cfg4.win 5).blk t).view.emb (ix2 0 (y 1))) = V c main_v100 (ix2 0 (y 1))
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * (y 1).val = (y 1).val; omega
  · exact (Cert.Spec.upd_ix2 (V c main_v63) (V c main_v89) (V c main_v91) (fun j => V c main_v98 (ix2 0 j)) (fun j => V c main_v99 (ix2 0 j)) (fun j => V c main_v100 (ix2 0 j)) ⟨t.val * 2000 + (y 0).val, hr⟩ (y 1)).symm.trans
      (Cert.Blocks.at_ix2 (Cert.Spec.upd (V c main_v63) (V c main_v89) (V c main_v91) (fun j => V c main_v98 (ix2 0 j)) (fun j => V c main_v99 (ix2 0 j)) (fun j => V c main_v100 (ix2 0 j))) ⟨t.val * 2000 + (y 0).val, hr⟩ (y 1)
        (((cfg4.win 6).blk t).view.emb y)
        (by show win4_6.index t (0 : Fin 2) * 2000 + 1 * (y 0).val = t.val * 2000 + (y 0).val; omega)
        (by show win4_6.index t (1 : Fin 2) * 128 + 1 * (y 1).val = (y 1).val; omega))

/-- An index of the output array is in point t's block iff each coordinate is in the block's range on its axis. -/
theorem mem_blk (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v101).slice (win4_6.rect t)).set ↔ _
  rw [View.set_slice_whole, Rect.mem_set_unit]
  exact Iff.rfl

/-- Every row is in the block of the point numbered by the row divided by 2000. -/
theorem cover (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_6 _, ?_⟩
  rw [mem_blk]
  obtain ⟨e0, e1, e2, e3, e4, e5, e6, e7, e8, e9, e10, e11, e12, e13⟩ := idx_facts ⟨(i 0).val / 2000, by rw [hN]; omega⟩
  intro a
  match a with
  | ⟨0, _⟩ =>
    show win4_6.index _ (0 : Fin 2) * 2000 ≤ (i 0).val ∧ (i 0).val < win4_6.index _ (0 : Fin 2) * 2000 + 2000
    rw [e12]; show (i 0).val / 2000 * 2000 ≤ (i 0).val ∧ (i 0).val < (i 0).val / 2000 * 2000 + 2000; omega
  | ⟨1, _⟩ =>
    show win4_6.index _ (1 : Fin 2) * 128 ≤ (i 1).val ∧ (i 1).val < win4_6.index _ (1 : Fin 2) * 128 + 128
    rw [e13]; omega

/-- The output array after all 25 points: the update of the arrays the region was entered with. -/
theorem final (c : Dev nD) :
    (dat4 V c).arrAt 6 cfg4.N = Cert.Spec.upd (V c main_v63) (V c main_v89) (V c main_v91) (fun j => V c main_v98 (ix2 0 j)) (fun j => V c main_v99 (ix2 0 j)) (fun j => V c main_v100 (ix2 0 j)) :=
  (dat4 V c).arrAt_eq_of_cover 6 _ (fun t _ => flushed_eq V c t) cover

end Cert.KernelIdeal.Arr4

end
-- ==== Proof.HostGlue.lean ====
/-
  The kernel program's host operations compute the reference's stages.

  Between its five regions the kernel program runs the same array operations as the reference: the rows of the edge
  array, the wrapped gathers of node rows and relation rows, the in-degree count and its inverse, the scatter-add of
  the messages scaled by the inverse in-degree, and the slices of the stacked weights. Each stretch of operations is
  read with its entry contents a variable, so that a buffer at a region's entry is the reference's stage function of
  whatever the stretch found; a buffer no operation writes, and no region holds as an array, is carried unchanged
  from boundary to boundary. Together: every array a region reads is the reference's stage of the launch arguments,
  given that the earlier regions left the stages they compute.
-/
import proofs.«143730_j55190329753873_2_alg».proof.Proof.Gen.KernelIdeal.Frame
import proofs.«143730_j55190329753873_2_alg».proof.Proof.ReadP

set_option maxRecDepth 16384

noncomputable section

namespace Cert.Glue

open Cert.KernelIdeal Cert.KernelIdeal.Gen Cert.ReferenceIdeal.ReadP
open Idealize.ShloMosaic Idealize.ShloMosaic.TcCoe Idealize.ShloMosaic.ValueIdx

variable (x0 : (⟨S50000x128, .f32⟩ : BufTy).Contents (Elt Ideal)) (x1 : (⟨S50000, .i32⟩ : BufTy).Contents (Elt Ideal))
  (x2 : (⟨S2x800000, .i32⟩ : BufTy).Contents (Elt Ideal)) (x3 : (⟨S800000, .i32⟩ : BufTy).Contents (Elt Ideal))
  (x4 : (⟨S1000x32, .f32⟩ : BufTy).Contents (Elt Ideal)) (x5 : (⟨S160x128, .f32⟩ : BufTy).Contents (Elt Ideal))
  (x6 : (⟨S128, .f32⟩ : BufTy).Contents (Elt Ideal)) (x7 : (⟨S2x1024x32, .f32⟩ : BufTy).Contents (Elt Ideal))
  (x8 x9 : (⟨S2x128x128, .f32⟩ : BufTy).Contents (Elt Ideal)) (x10 : (⟨S2x128, .f32⟩ : BufTy).Contents (Elt Ideal))
  (x11 : (⟨S2x32x128, .f32⟩ : BufTy).Contents (Elt Ideal)) (x12 x13 : (⟨S2x128, .f32⟩ : BufTy).Contents (Elt Ideal))

variable (U : Valuation τ sig (Elt Ideal))

/-! ## Each stretch of host operations, read from variable entry contents -/

/-- A vector of 128 entries laid out as a row: entry (0, j) of the row is entry j of the vector. -/
theorem row_apply (y : (⟨1, ![128]⟩ : Shape).Idx → EReal) (j : Fin 128) :
    shapeCast (⟨2, ![1, 128]⟩ : Shape) y shapeCasts_S128_S1x128 (ix2 (0 : Fin 1) j) = y (ix1 j) :=
  shapeCast_apply y shapeCasts_S128_S1x128 (ix2 (0 : Fin 1) j) (ix1 j)
    (by rewrite [Shape.rowMajor_val_one, Shape.rowMajor_val_two]; show j.val = 0 * 128 + j.val; omega)

/-- The first stretch leaves the source node of each edge: row 0 of the edge array, flattened. -/
theorem s0_v1 (h2 : U (Proc.devRef .tc main_arg2) = x2) :
    StableHlo.after (hostOps0 (F := Ideal)) U (Proc.devRef .tc main_v1) = val_main_v1 (F := Ideal) x2 := by
  dsimp only [hostOps0]
  after_results
  rw [h2]
  rfl

/-- The first stretch leaves the target node of each edge: row 1 of the edge array, flattened. -/
theorem s0_v3 (h2 : U (Proc.devRef .tc main_arg2) = x2) :
    StableHlo.after (hostOps0 (F := Ideal)) U (Proc.devRef .tc main_v3) = val_main_v3 (F := Ideal) x2 := by
  dsimp only [hostOps0]
  after_results
  rw [h2]
  rfl

/-- The first stretch leaves the concatenated features: the node features beside the gathered label embedding. -/
theorem s0_v11 (h0 : U (Proc.devRef .tc main_arg0) = x0) (h1 : U (Proc.devRef .tc main_arg1) = x1) (h4 : U (Proc.devRef .tc main_arg4) = x4) :
    StableHlo.after (hostOps0 (F := Ideal)) U (Proc.devRef .tc main_v11) = val_main_v11 (F := Ideal) x0 x1 x4 := by
  dsimp only [hostOps0]
  after_results
  rw [h0, h1, h4]
  rfl

/-- The first stretch leaves the projection bias as a row: entry (0, j) is the bias at j. -/
theorem s0_v12 (h6 : U (Proc.devRef .tc main_arg6) = x6) (j : Fin 128) :
    StableHlo.after (hostOps0 (F := Ideal)) U (Proc.devRef .tc main_v12) (ix2 (0 : Fin 1) j) = x6 (ix1 j) := by
  dsimp only [hostOps0]
  after_results
  rw [h6]
  exact row_apply (x6) j

/-- Where a node's in-degree is positive: ones scatter-added at the edges' targets, compared with zero. -/
theorem s1_v19 (h3 : U (Proc.devRef .tc main_v3) = val_main_v3 (F := Ideal) x2) :
    StableHlo.after (hostOps1 (F := Ideal)) U (Proc.devRef .tc main_v19) = val_main_v22 (F := Ideal) x2 := by
  dsimp only [hostOps1]
  after_results_simp
  rw [h3]
  rfl

/-- One over the in-degree, the degree first raised to at least one. -/
theorem s1_v23 (h3 : U (Proc.devRef .tc main_v3) = val_main_v3 (F := Ideal) x2) :
    StableHlo.after (hostOps1 (F := Ideal)) U (Proc.devRef .tc main_v23) = val_main_v26 (F := Ideal) x2 := by
  dsimp only [hostOps1]
  after_results_simp
  rw [h3]
  rfl

/-- The zero the selection falls back to. -/
theorem s1_cst5 :
    StableHlo.after (hostOps1 (F := Ideal)) U (Proc.devRef .tc main_cst_5) = val_main_cst_5 (F := Ideal) := by
  dsimp only [hostOps1]
  after_results_simp
  rfl

/-- The inverse in-degree: the reciprocal where the degree is positive, zero elsewhere. The called function's buffers
    hold their values at the buffers' own types; the transports between a buffer's type and its literal type are
    identities. -/
theorem s1_v24 (h19 : U (Proc.devRef .tc main_v19) = val_main_v22 (F := Ideal) x2) (h23 : U (Proc.devRef .tc main_v23) = val_main_v26 (F := Ideal) x2) (h5 : U (Proc.devRef .tc main_cst_5) = val_main_cst_5 (F := Ideal)) :
    StableHlo.after (hostOps1_1 (F := Ideal)) U (Proc.devRef .tc main_v24) = val_main_v27 (F := Ideal) x2 := by
  have e24 : ∀ y : (⟨S50000, .f32⟩ : BufTy).Contents (Elt Ideal),
      (StableHlo.TRef.of (sig := sig) (T := ⟨S50000, .f32⟩) main_v24).toBuf y = y := fun _ => rfl
  have e19 : ∀ y : (⟨S50000, .i1⟩ : BufTy).Contents (Elt Ideal),
      (StableHlo.TRef.of (sig := sig) (T := ⟨S50000, .i1⟩) main_v19).ofBuf y = y := fun _ => rfl
  have e23 : ∀ y : (⟨S50000, .f32⟩ : BufTy).Contents (Elt Ideal),
      (StableHlo.TRef.of (sig := sig) (T := ⟨S50000, .f32⟩) main_v23).ofBuf y = y := fun _ => rfl
  have e1 : ∀ y : (⟨S50000, .f32⟩ : BufTy).Contents (Elt Ideal),
      (StableHlo.TRef.of (sig := sig) (T := ⟨S50000, .f32⟩) main_call0_v1).ofBuf
        ((StableHlo.TRef.of (sig := sig) (T := ⟨S50000, .f32⟩) main_call0_v1).toBuf y) = y := fun _ => rfl
  have e0 : ∀ y : (⟨S_, .f32⟩ : BufTy).Contents (Elt Ideal),
      (StableHlo.TRef.of (sig := sig) (T := ⟨S_, .f32⟩) main_call0_v0).ofBuf
        ((StableHlo.TRef.of (sig := sig) (T := ⟨S_, .f32⟩) main_call0_v0).toBuf y) = y := fun _ => rfl
  have e5 : ∀ y : (⟨S_, .f32⟩ : BufTy).Contents (Elt Ideal),
      (StableHlo.TRef.of (sig := sig) (T := ⟨S_, .f32⟩) main_cst_5).ofBuf y = y := fun _ => rfl
  dsimp only [hostOps1_1]
  after_results
  rw [h19, h23, h5, e24, e19, e23, e1, e0, e5]
  rfl

/-- The inverse in-degree as a column. -/
theorem s1_v25 (h24 : U (Proc.devRef .tc main_v24) = val_main_v27 (F := Ideal) x2) :
    StableHlo.after (hostOps1_2 (F := Ideal)) U (Proc.devRef .tc main_v25) = val_main_v28 (F := Ideal) x2 := by
  dsimp only [hostOps1_2]
  after_results_simp
  rw [h24]
  rfl

/-- Layer 0's source rows: the projected features gathered at each edge's (wrapped) source node. -/
theorem s1_v32 (h13 : U (Proc.devRef .tc main_v13) = val_main_v16 (F := Ideal) x0 x1 x4 x5 x6) (h1 : U (Proc.devRef .tc main_v1) = val_main_v1 (F := Ideal) x2) :
    StableHlo.after (hostOps1_2 (F := Ideal)) U (Proc.devRef .tc main_v32) = val_main_v44 (F := Ideal) x0 x1 x2 x4 x5 x6 := by
  dsimp only [hostOps1_2]
  after_results_simp
  rw [h13, h1]
  rfl

/-- Layer 0's relation rows: the layer's relation table gathered at each edge's (wrapped) relation. -/
theorem s1_v41 (h3 : U (Proc.devRef .tc main_arg3) = x3) (h7 : U (Proc.devRef .tc main_arg7) = x7) :
    StableHlo.after (hostOps1_2 (F := Ideal)) U (Proc.devRef .tc main_v41) = val_main_v37 (F := Ideal) x3 x7 := by
  dsimp only [hostOps1_2]
  after_results_simp
  rw [h3, h7]
  rfl

/-- Layer 0's neighbour weights: slice 0 of the stacked weights, as a matrix. -/
theorem s1_v43 (h8 : U (Proc.devRef .tc main_arg8) = x8) :
    StableHlo.after (hostOps1_2 (F := Ideal)) U (Proc.devRef .tc main_v43) = val_main_v46 (F := Ideal) x8 := by
  dsimp only [hostOps1_2]
  after_results_simp
  rw [h8]
  rfl

/-- Layer 0's relation weights: slice 0 of the stacked weights, as a matrix. -/
theorem s1_v45 (h11 : U (Proc.devRef .tc main_arg11) = x11) :
    StableHlo.after (hostOps1_2 (F := Ideal)) U (Proc.devRef .tc main_v45) = val_main_v49 (F := Ideal) x11 := by
  dsimp only [hostOps1_2]
  after_results_simp
  rw [h11]
  rfl

/-- Layer 0's aggregate: the messages scatter-added at the edges' targets, times the broadcast inverse in-degree. -/
theorem s2_v51 (h46 : U (Proc.devRef .tc main_v46) = val_main_v51 (F := Ideal) x0 x1 x2 x3 x4 x5 x6 x7 x8 x11) (h3 : U (Proc.devRef .tc main_v3) = val_main_v3 (F := Ideal) x2) (h25 : U (Proc.devRef .tc main_v25) = val_main_v28 (F := Ideal) x2) :
    StableHlo.after (hostOps2 (F := Ideal)) U (Proc.devRef .tc main_v51) = val_main_v56 (F := Ideal) x0 x1 x2 x3 x4 x5 x6 x7 x8 x11 := by
  dsimp only [hostOps2]
  after_results_simp
  rw [h46, h3, h25]
  rfl

/-- Layer 0's self weights: slice 0 of the stacked weights, as a matrix. -/
theorem s2_v53 (h9 : U (Proc.devRef .tc main_arg9) = x9) :
    StableHlo.after (hostOps2 (F := Ideal)) U (Proc.devRef .tc main_v53) = val_main_v58 (F := Ideal) x9 := by
  dsimp only [hostOps2]
  after_results_simp
  rw [h9]
  rfl

/-- Layer 0's bias as a row: entry (0, j) is slice 0 of the stacked biases at j. -/
theorem s2_v60 (h10 : U (Proc.devRef .tc main_arg10) = x10) (j : Fin 128) :
    StableHlo.after (hostOps2 (F := Ideal)) U (Proc.devRef .tc main_v60) (ix2 (0 : Fin 1) j) = val_main_v61 (F := Ideal) x10 (ix1 j) := by
  dsimp only [hostOps2]
  after_results_simp
  rw [h10]
  exact row_apply (val_main_v61 (F := Ideal) x10) j

/-- Layer 0's gain as a row. -/
theorem s2_v61 (h12 : U (Proc.devRef .tc main_arg12) = x12) (j : Fin 128) :
    StableHlo.after (hostOps2 (F := Ideal)) U (Proc.devRef .tc main_v61) (ix2 (0 : Fin 1) j) = val_main_v68 (F := Ideal) x12 (ix1 j) := by
  dsimp only [hostOps2]
  after_results_simp
  rw [h12]
  exact row_apply (val_main_v68 (F := Ideal) x12) j

/-- Layer 0's shift as a row. -/
theorem s2_v62 (h13 : U (Proc.devRef .tc main_arg13) = x13) (j : Fin 128) :
    StableHlo.after (hostOps2 (F := Ideal)) U (Proc.devRef .tc main_v62) (ix2 (0 : Fin 1) j) = val_main_v70 (F := Ideal) x13 (ix1 j) := by
  dsimp only [hostOps2]
  after_results_simp
  rw [h13]
  exact row_apply (val_main_v70 (F := Ideal) x13) j

/-- Layer 1's source rows: layer 0's output gathered at each edge's (wrapped) source node. -/
theorem s3_v70 (h63 : U (Proc.devRef .tc main_v63) = val_main_v94 (F := Ideal) x0 x1 x2 x3 x4 x5 x6 x7 x8 x9 x10 x11 x12 x13) (h1 : U (Proc.devRef .tc main_v1) = val_main_v1 (F := Ideal) x2) :
    StableHlo.after (hostOps3 (F := Ideal)) U (Proc.devRef .tc main_v70) = val_main_v110 (F := Ideal) x0 x1 x2 x3 x4 x5 x6 x7 x8 x9 x10 x11 x12 x13 := by
  dsimp only [hostOps3]
  after_results_simp
  rw [h63, h1]
  rfl

/-- Layer 1's relation rows. -/
theorem s3_v79 (h3 : U (Proc.devRef .tc main_arg3) = x3) (h7 : U (Proc.devRef .tc main_arg7) = x7) :
    StableHlo.after (hostOps3 (F := Ideal)) U (Proc.devRef .tc main_v79) = val_main_v103 (F := Ideal) x3 x7 := by
  dsimp only [hostOps3]
  after_results_simp
  rw [h3, h7]
  rfl

/-- Layer 1's neighbour weights: slice 1 of the stacked weights. -/
theorem s3_v81 (h8 : U (Proc.devRef .tc main_arg8) = x8) :
    StableHlo.after (hostOps3 (F := Ideal)) U (Proc.devRef .tc main_v81) = val_main_v112 (F := Ideal) x8 := by
  dsimp only [hostOps3]
  after_results_simp
  rw [h8]
  rfl

/-- Layer 1's relation weights: slice 1 of the stacked weights. -/
theorem s3_v83 (h11 : U (Proc.devRef .tc main_arg11) = x11) :
    StableHlo.after (hostOps3 (F := Ideal)) U (Proc.devRef .tc main_v83) = val_main_v115 (F := Ideal) x11 := by
  dsimp only [hostOps3]
  after_results_simp
  rw [h11]
  rfl

/-- Layer 1's aggregate. -/
theorem s4_v89 (h84 : U (Proc.devRef .tc main_v84) = val_main_v117 (F := Ideal) x0 x1 x2 x3 x4 x5 x6 x7 x8 x9 x10 x11 x12 x13) (h3 : U (Proc.devRef .tc main_v3) = val_main_v3 (F := Ideal) x2) (h25 : U (Proc.devRef .tc main_v25) = val_main_v28 (F := Ideal) x2) :
    StableHlo.after (hostOps4 (F := Ideal)) U (Proc.devRef .tc main_v89) = val_main_v122 (F := Ideal) x0 x1 x2 x3 x4 x5 x6 x7 x8 x9 x10 x11 x12 x13 := by
  dsimp only [hostOps4]
  after_results_simp
  rw [h84, h3, h25]
  rfl

/-- Layer 1's self weights: slice 1 of the stacked weights. -/
theorem s4_v91 (h9 : U (Proc.devRef .tc main_arg9) = x9) :
    StableHlo.after (hostOps4 (F := Ideal)) U (Proc.devRef .tc main_v91) = val_main_v124 (F := Ideal) x9 := by
  dsimp only [hostOps4]
  after_results_simp
  rw [h9]
  rfl

/-- Layer 1's bias as a row. -/
theorem s4_v98 (h10 : U (Proc.devRef .tc main_arg10) = x10) (j : Fin 128) :
    StableHlo.after (hostOps4 (F := Ideal)) U (Proc.devRef .tc main_v98) (ix2 (0 : Fin 1) j) = val_main_v127 (F := Ideal) x10 (ix1 j) := by
  dsimp only [hostOps4]
  after_results_simp
  rw [h10]
  exact row_apply (val_main_v127 (F := Ideal) x10) j

/-- Layer 1's gain as a row. -/
theorem s4_v99 (h12 : U (Proc.devRef .tc main_arg12) = x12) (j : Fin 128) :
    StableHlo.after (hostOps4 (F := Ideal)) U (Proc.devRef .tc main_v99) (ix2 (0 : Fin 1) j) = val_main_v134 (F := Ideal) x12 (ix1 j) := by
  dsimp only [hostOps4]
  after_results_simp
  rw [h12]
  exact row_apply (val_main_v134 (F := Ideal) x12) j

/-- Layer 1's shift as a row. -/
theorem s4_v100 (h13 : U (Proc.devRef .tc main_arg13) = x13) (j : Fin 128) :
    StableHlo.after (hostOps4 (F := Ideal)) U (Proc.devRef .tc main_v100) (ix2 (0 : Fin 1) j) = val_main_v136 (F := Ideal) x13 (ix1 j) := by
  dsimp only [hostOps4]
  after_results_simp
  rw [h13]
  exact row_apply (val_main_v136 (F := Ideal) x13) j

/-! ## What each stretch of host operations writes, and what it therefore keeps -/

/-- The buffers the first stretch writes. -/
abbrev wr0 : List (Ref sig .tc) :=
  [ main_v0, main_v1, main_v2, main_v3, main_c, main_v4, main_v5, main_c_0, main_v6, main_v7,
    main_v8, main_v9, main_v10, main_v11, main_v12 ]
/-- The buffers the three stretches between regions 0 and 1 write. -/
abbrev wr1 : List (Ref sig .tc) :=
  [ main_cst, main_v14, main_cst_1, main_v15, main_v16, main_v17, main_cst_2, main_v18, main_v19, main_cst_3,
    main_v20, main_v21, main_cst_4, main_v22, main_v23, main_cst_5, main_call0_v0, main_call0_v1, main_v24, main_v25,
    main_c_6, main_v26, main_v27, main_c_7, main_v28, main_v29, main_v30, main_v31, main_v32, main_v33,
    main_v34, main_c_8, main_v35, main_v36, main_c_9, main_v37, main_v38, main_v39, main_v40, main_v41,
    main_v42, main_v43, main_v44, main_v45 ]
/-- The buffers the stretch between regions 1 and 2 writes. -/
abbrev wr2 : List (Ref sig .tc) :=
  [ main_cst_10, main_v47, main_v48, main_v49, main_v50, main_v51, main_v52, main_v53, main_v54, main_v55,
    main_v56, main_v57, main_v58, main_v59, main_v60, main_v61, main_v62 ]
/-- The buffers the stretch between regions 2 and 3 writes. -/
abbrev wr3 : List (Ref sig .tc) :=
  [ main_c_11, main_v64, main_v65, main_c_12, main_v66, main_v67, main_v68, main_v69, main_v70, main_v71,
    main_v72, main_c_13, main_v73, main_v74, main_c_14, main_v75, main_v76, main_v77, main_v78, main_v79,
    main_v80, main_v81, main_v82, main_v83 ]
/-- The buffers the stretch between regions 3 and 4 writes. -/
abbrev wr4 : List (Ref sig .tc) :=
  [ main_cst_15, main_v85, main_v86, main_v87, main_v88, main_v89, main_v90, main_v91, main_v92, main_v93,
    main_v94, main_v95, main_v96, main_v97, main_v98, main_v99, main_v100 ]

theorem sub0 : (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub1 : (hostOps1 (F := Ideal)).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub1_1 : (hostOps1_1 (F := Ideal)).Forall fun op => op.writes ⊆ (wr1.map (Proc.devRef (τ := τ) .tc)).toFinset := by
  simp only [hostOps1_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub1_2 : (hostOps1_2 (F := Ideal)).Forall fun op => op.writes ⊆ (wr1.map (Proc.devRef (τ := τ) .tc)).toFinset := by
  simp only [hostOps1_2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub2 : (hostOps2 (F := Ideal)).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub3 : (hostOps3 (F := Ideal)).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem sub4 : (hostOps4 (F := Ideal)).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer a stretch does not write keeps its contents. -/
theorem keep0 (V : Valuation τ sig (Elt Ideal)) {r : Ref sig .tc} (hr : r ∉ wr0) :
    StableHlo.after (hostOps0 (F := Ideal)) V (Proc.devRef .tc r) = V (Proc.devRef .tc r) :=
  StableHlo.after_of_writes_sub _ V sub0 hr

theorem keep1 (V : Valuation τ sig (Elt Ideal)) {r : Ref sig .tc} (hr : r ∉ wr1) :
    StableHlo.after (hostOps1 (F := Ideal)) V (Proc.devRef .tc r) = V (Proc.devRef .tc r) :=
  StableHlo.after_of_writes_sub _ V sub1 hr

theorem keep1_1 (V : Valuation τ sig (Elt Ideal)) {r : Ref sig .tc} (hr : r ∉ wr1) :
    StableHlo.after (hostOps1_1 (F := Ideal)) V (Proc.devRef .tc r) = V (Proc.devRef .tc r) :=
  StableHlo.after_of_writes_sub _ V sub1_1 hr

theorem keep1_2 (V : Valuation τ sig (Elt Ideal)) {r : Ref sig .tc} (hr : r ∉ wr1) :
    StableHlo.after (hostOps1_2 (F := Ideal)) V (Proc.devRef .tc r) = V (Proc.devRef .tc r) :=
  StableHlo.after_of_writes_sub _ V sub1_2 hr

theorem keep2 (V : Valuation τ sig (Elt Ideal)) {r : Ref sig .tc} (hr : r ∉ wr2) :
    StableHlo.after (hostOps2 (F := Ideal)) V (Proc.devRef .tc r) = V (Proc.devRef .tc r) :=
  StableHlo.after_of_writes_sub _ V sub2 hr

theorem keep3 (V : Valuation τ sig (Elt Ideal)) {r : Ref sig .tc} (hr : r ∉ wr3) :
    StableHlo.after (hostOps3 (F := Ideal)) V (Proc.devRef .tc r) = V (Proc.devRef .tc r) :=
  StableHlo.after_of_writes_sub _ V sub3 hr

theorem keep4 (V : Valuation τ sig (Elt Ideal)) {r : Ref sig .tc} (hr : r ∉ wr4) :
    StableHlo.after (hostOps4 (F := Ideal)) V (Proc.devRef .tc r) = V (Proc.devRef .tc r) :=
  StableHlo.after_of_writes_sub _ V sub4 hr

/-! ## A buffer's contents carried from boundary to boundary -/

variable (m : (ℓ : Loc nD τ sig) → Buf (Elt Ideal) ℓ) (ρ : Dev nD → PrngReg) (c : Dev nD)

/-- Across the first stretch an unwritten buffer holds its launch contents. -/
theorem at1 {r : Ref sig .tc} (b0 : r ∉ wr0) : W1 m ρ c (Proc.devRef .tc r) = m ((c : Thread nD τ).loc r) :=
  keep0 (W0 m ρ c) b0
/-- Through region 0: a buffer that is none of its arrays is as at its entry. -/
theorem at2 {r : Ref sig .tc} (a0 : (∀ w, Pipeline.arrRef spec0 w ≠ r)) : W2 m ρ c (Proc.devRef .tc r) = W1 m ρ c (Proc.devRef .tc r) :=
  W2_of_ne m ρ c r a0
/-- Through the three stretches up to region 1's entry. -/
theorem at5 {r : Ref sig .tc} (b1 : r ∉ wr1) : W5 m ρ c (Proc.devRef .tc r) = W2 m ρ c (Proc.devRef .tc r) :=
  (keep1_2 _ b1).trans ((keep1_1 _ b1).trans (keep1 _ b1))
/-- Through region 1. -/
theorem at6 {r : Ref sig .tc} (a1 : (∀ w, Pipeline.arrRef spec1 w ≠ r)) : W6 m ρ c (Proc.devRef .tc r) = W5 m ρ c (Proc.devRef .tc r) :=
  W6_of_ne m ρ c r a1
/-- Through the stretch up to region 2's entry. -/
theorem at7 {r : Ref sig .tc} (b2 : r ∉ wr2) : W7 m ρ c (Proc.devRef .tc r) = W6 m ρ c (Proc.devRef .tc r) :=
  keep2 _ b2
/-- Through region 2. -/
theorem at8 {r : Ref sig .tc} (a2 : (∀ w, Pipeline.arrRef spec2 w ≠ r)) : W8 m ρ c (Proc.devRef .tc r) = W7 m ρ c (Proc.devRef .tc r) :=
  W8_of_ne m ρ c r a2
/-- Through the stretch up to region 3's entry. -/
theorem at9 {r : Ref sig .tc} (b3 : r ∉ wr3) : W9 m ρ c (Proc.devRef .tc r) = W8 m ρ c (Proc.devRef .tc r) :=
  keep3 _ b3
/-- Through region 3. -/
theorem at10 {r : Ref sig .tc} (a3 : (∀ w, Pipeline.arrRef spec3 w ≠ r)) : W10 m ρ c (Proc.devRef .tc r) = W9 m ρ c (Proc.devRef .tc r) :=
  W10_of_ne m ρ c r a3
/-- Through the stretch up to region 4's entry. -/
theorem at11 {r : Ref sig .tc} (b4 : r ∉ wr4) : W11 m ρ c (Proc.devRef .tc r) = W10 m ρ c (Proc.devRef .tc r) :=
  keep4 _ b4

/-- From region 1's entry to region 2's entry stretch (its entry contents). -/
theorem from5to6 {r : Ref sig .tc} (a1 : (∀ w, Pipeline.arrRef spec1 w ≠ r)) : W6 m ρ c (Proc.devRef .tc r) = W5 m ρ c (Proc.devRef .tc r) := at6 m ρ c a1
/-- From region 0's exit to region 1's exit. -/
theorem from2to6 {r : Ref sig .tc} (b1 : r ∉ wr1) (a1 : (∀ w, Pipeline.arrRef spec1 w ≠ r)) : W6 m ρ c (Proc.devRef .tc r) = W2 m ρ c (Proc.devRef .tc r) :=
  (at6 m ρ c a1).trans (at5 m ρ c b1)
/-- From region 1's exit to region 2's exit. -/
theorem from6to8 {r : Ref sig .tc} (b2 : r ∉ wr2) (a2 : (∀ w, Pipeline.arrRef spec2 w ≠ r)) : W8 m ρ c (Proc.devRef .tc r) = W6 m ρ c (Proc.devRef .tc r) :=
  (at8 m ρ c a2).trans (at7 m ρ c b2)
/-- From region 2's exit to region 3's exit. -/
theorem from8to10 {r : Ref sig .tc} (b3 : r ∉ wr3) (a3 : (∀ w, Pipeline.arrRef spec3 w ≠ r)) : W10 m ρ c (Proc.devRef .tc r) = W8 m ρ c (Proc.devRef .tc r) :=
  (at10 m ρ c a3).trans (at9 m ρ c b3)

/-- A buffer nothing writes before region 0's exit holds its launch contents there … -/
theorem arg2 {r : Ref sig .tc} (b0 : r ∉ wr0) (a0 : (∀ w, Pipeline.arrRef spec0 w ≠ r)) : W2 m ρ c (Proc.devRef .tc r) = m ((c : Thread nD τ).loc r) :=
  (at2 m ρ c a0).trans (at1 m ρ c b0)
/-- … at region 1's exit … -/
theorem arg6 {r : Ref sig .tc} (b0 : r ∉ wr0) (a0 : (∀ w, Pipeline.arrRef spec0 w ≠ r)) (b1 : r ∉ wr1) (a1 : (∀ w, Pipeline.arrRef spec1 w ≠ r)) :
    W6 m ρ c (Proc.devRef .tc r) = m ((c : Thread nD τ).loc r) :=
  (from2to6 m ρ c b1 a1).trans (arg2 m ρ c b0 a0)
/-- … at region 2's exit … -/
theorem arg8 {r : Ref sig .tc} (b0 : r ∉ wr0) (a0 : (∀ w, Pipeline.arrRef spec0 w ≠ r)) (b1 : r ∉ wr1) (a1 : (∀ w, Pipeline.arrRef spec1 w ≠ r)) (b2 : r ∉ wr2) (a2 : (∀ w, Pipeline.arrRef spec2 w ≠ r)) :
    W8 m ρ c (Proc.devRef .tc r) = m ((c : Thread nD τ).loc r) :=
  (from6to8 m ρ c b2 a2).trans (arg6 m ρ c b0 a0 b1 a1)
/-- … and at region 3's exit. -/
theorem arg10 {r : Ref sig .tc} (b0 : r ∉ wr0) (a0 : (∀ w, Pipeline.arrRef spec0 w ≠ r)) (b1 : r ∉ wr1) (a1 : (∀ w, Pipeline.arrRef spec1 w ≠ r)) (b2 : r ∉ wr2) (a2 : (∀ w, Pipeline.arrRef spec2 w ≠ r))
    (b3 : r ∉ wr3) (a3 : (∀ w, Pipeline.arrRef spec3 w ≠ r)) : W10 m ρ c (Proc.devRef .tc r) = m ((c : Thread nD τ).loc r) :=
  (from8to10 m ρ c b3 a3).trans (arg8 m ρ c b0 a0 b1 a1 b2 a2)

/-! ## The edges' endpoints and the inverse in-degree at the boundaries that read them -/

/-- The source node of each edge, when the first stretch has run. -/
theorem src1 : W1 m ρ c (Proc.devRef .tc main_v1) = val_main_v1 (F := Ideal) (m ((c : Thread nD τ).loc main_arg2)) :=
  s0_v1 _ (W0 m ρ c) rfl
/-- The target node of each edge, when the first stretch has run. -/
theorem dst1 : W1 m ρ c (Proc.devRef .tc main_v3) = val_main_v3 (F := Ideal) (m ((c : Thread nD τ).loc main_arg2)) :=
  s0_v3 _ (W0 m ρ c) rfl
/-- The source nodes at region 0's exit. -/
theorem src2 : W2 m ρ c (Proc.devRef .tc main_v1) = val_main_v1 (F := Ideal) (m ((c : Thread nD τ).loc main_arg2)) :=
  (at2 m ρ c (by decide)).trans (src1 m ρ c)
/-- The target nodes at region 0's exit. -/
theorem dst2 : W2 m ρ c (Proc.devRef .tc main_v3) = val_main_v3 (F := Ideal) (m ((c : Thread nD τ).loc main_arg2)) :=
  (at2 m ρ c (by decide)).trans (dst1 m ρ c)
/-- The target nodes at region 1's exit. -/
theorem dst6 : W6 m ρ c (Proc.devRef .tc main_v3) = val_main_v3 (F := Ideal) (m ((c : Thread nD τ).loc main_arg2)) :=
  (from2to6 m ρ c (by decide) (by decide)).trans (dst2 m ρ c)
/-- The source nodes at region 2's exit. -/
theorem src8 : W8 m ρ c (Proc.devRef .tc main_v1) = val_main_v1 (F := Ideal) (m ((c : Thread nD τ).loc main_arg2)) :=
  (from6to8 m ρ c (by decide) (by decide)).trans ((from2to6 m ρ c (by decide) (by decide)).trans (src2 m ρ c))
/-- The target nodes at region 3's exit. -/
theorem dst10 : W10 m ρ c (Proc.devRef .tc main_v3) = val_main_v3 (F := Ideal) (m ((c : Thread nD τ).loc main_arg2)) :=
  (from8to10 m ρ c (by decide) (by decide)).trans ((from6to8 m ρ c (by decide) (by decide)).trans (dst6 m ρ c))
/-- The inverse in-degree column at region 1's entry. -/
theorem inv5 : W5 m ρ c (Proc.devRef .tc main_v25) = val_main_v28 (F := Ideal) (m ((c : Thread nD τ).loc main_arg2)) :=
  s1_v25 _ (W4 m ρ c) (s1_v24 _ (W3 m ρ c) (s1_v19 _ (W2 m ρ c) (dst2 m ρ c)) (s1_v23 _ (W2 m ρ c) (dst2 m ρ c))
    (s1_cst5 (W2 m ρ c)))
/-- The inverse in-degree column at region 1's exit. -/
theorem inv6 : W6 m ρ c (Proc.devRef .tc main_v25) = val_main_v28 (F := Ideal) (m ((c : Thread nD τ).loc main_arg2)) :=
  (at6 m ρ c (by decide)).trans (inv5 m ρ c)
/-- The inverse in-degree column at region 3's exit. -/
theorem inv10 : W10 m ρ c (Proc.devRef .tc main_v25) = val_main_v28 (F := Ideal) (m ((c : Thread nD τ).loc main_arg2)) :=
  (from8to10 m ρ c (by decide) (by decide)).trans ((from6to8 m ρ c (by decide) (by decide)).trans (inv6 m ρ c))

/-! ## The kernel's buffers at the region boundaries are the reference's stages -/

/-- Region 0 enters with the concatenated features … -/
theorem T1a : W1 m ρ c (Proc.devRef .tc main_v11) = val_main_v11 (F := Ideal) (m ((c : Thread nD τ).loc main_arg0)) (m ((c : Thread nD τ).loc main_arg1)) (m ((c : Thread nD τ).loc main_arg4)) :=
  s0_v11 _ _ _ (W0 m ρ c) rfl rfl rfl
/-- … the projection weights as launched … -/
theorem T1b : W1 m ρ c (Proc.devRef .tc main_arg5) = m ((c : Thread nD τ).loc main_arg5) :=
  at1 m ρ c (by decide)
/-- … and the projection bias as a row. -/
theorem T1c (j : Fin 128) : W1 m ρ c (Proc.devRef .tc main_v12) (ix2 (0 : Fin 1) j) = (m ((c : Thread nD τ).loc main_arg6)) (ix1 j) :=
  s0_v12 _ (W0 m ρ c) rfl j

/-- Region 1 enters with layer 0's source rows, relation rows and the two weight matrices, given that region 0 left
    the projected features. -/
theorem T2 (H0 : W2 m ρ c (Proc.devRef .tc main_v13) = val_main_v16 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :
    W5 m ρ c (Proc.devRef .tc main_v32) = val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
    ∧ W5 m ρ c (Proc.devRef .tc main_v41) = val_main_v37 (F := Ideal) (m ((c : Thread nD τ).loc main_arg3)) (m ((c : Thread nD τ).loc main_arg7))
    ∧ W5 m ρ c (Proc.devRef .tc main_v43) = val_main_v46 (F := Ideal) (m ((c : Thread nD τ).loc main_arg8))
    ∧ W5 m ρ c (Proc.devRef .tc main_v45) = val_main_v49 (F := Ideal) (m ((c : Thread nD τ).loc main_arg11)) := by
  have k : ∀ {r : Ref sig .tc}, r ∉ wr1 → W4 m ρ c (Proc.devRef .tc r) = W2 m ρ c (Proc.devRef .tc r) :=
    fun b1 => (keep1_1 _ b1).trans (keep1 _ b1)
  exact ⟨s1_v32 _ _ _ _ _ _ (W4 m ρ c) ((k (by decide)).trans H0) ((k (by decide)).trans (src2 m ρ c)),
    s1_v41 _ _ (W4 m ρ c) ((k (by decide)).trans (arg2 m ρ c (by decide) (by decide))) ((k (by decide)).trans (arg2 m ρ c (by decide) (by decide))),
    s1_v43 _ (W4 m ρ c) ((k (by decide)).trans (arg2 m ρ c (by decide) (by decide))),
    s1_v45 _ (W4 m ρ c) ((k (by decide)).trans (arg2 m ρ c (by decide) (by decide)))⟩

/-- Region 2 enters with the projected features, layer 0's aggregate, self weights and the bias, gain and shift rows,
    given that region 0 left the projected features and region 1 the messages. -/
theorem T3 (H0 : W2 m ρ c (Proc.devRef .tc main_v13) = val_main_v16 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
    (H1 : W6 m ρ c (Proc.devRef .tc main_v46) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))) :
    W7 m ρ c (Proc.devRef .tc main_v13) = val_main_v16 (F := Ideal) (m ((c : Thread nD τ).loc main_arg0)) (m ((c : Thread nD τ).loc main_arg1)) (m ((c : Thread nD τ).loc main_arg4)) (m ((c : Thread nD τ).loc main_arg5)) (m ((c : Thread nD τ).loc main_arg6))
    ∧ W7 m ρ c (Proc.devRef .tc main_v51) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))
    ∧ W7 m ρ c (Proc.devRef .tc main_v53) = val_main_v58 (F := Ideal) (m ((c : Thread nD τ).loc main_arg9))
    ∧ (∀ j : Fin 128, W7 m ρ c (Proc.devRef .tc main_v60) (ix2 (0 : Fin 1) j) = val_main_v61 (F := Ideal) (m ((c : Thread nD τ).loc main_arg10)) (ix1 j))
    ∧ (∀ j : Fin 128, W7 m ρ c (Proc.devRef .tc main_v61) (ix2 (0 : Fin 1) j) = val_main_v68 (F := Ideal) (m ((c : Thread nD τ).loc main_arg12)) (ix1 j))
    ∧ (∀ j : Fin 128, W7 m ρ c (Proc.devRef .tc main_v62) (ix2 (0 : Fin 1) j) = val_main_v70 (F := Ideal) (m ((c : Thread nD τ).loc main_arg13)) (ix1 j)) :=
  ⟨(at7 m ρ c (by decide)).trans ((from2to6 m ρ c (by decide) (by decide)).trans H0),
    s2_v51 _ _ _ _ _ _ _ _ _ _ (W6 m ρ c) H1 (dst6 m ρ c) (inv6 m ρ c),
    s2_v53 _ (W6 m ρ c) (arg6 m ρ c (by decide) (by decide) (by decide) (by decide)),
    s2_v60 _ (W6 m ρ c) (arg6 m ρ c (by decide) (by decide) (by decide) (by decide)),
    s2_v61 _ (W6 m ρ c) (arg6 m ρ c (by decide) (by decide) (by decide) (by decide)),
    s2_v62 _ (W6 m ρ c) (arg6 m ρ c (by decide) (by decide) (by decide) (by decide))⟩

/-- Region 3 enters with layer 1's source rows, relation rows and the two weight matrices, given that region 2 left
    layer 0's output. -/
theorem T4 (H2 : W8 m ρ c (Proc.devRef .tc main_v63) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    W9 m ρ c (Proc.devRef .tc main_v70) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ∧ W9 m ρ c (Proc.devRef .tc main_v79) = val_main_v103 (F := Ideal) (m ((c : Thread nD τ).loc main_arg3)) (m ((c : Thread nD τ).loc main_arg7))
    ∧ W9 m ρ c (Proc.devRef .tc main_v81) = val_main_v112 (F := Ideal) (m ((c : Thread nD τ).loc main_arg8))
    ∧ W9 m ρ c (Proc.devRef .tc main_v83) = val_main_v115 (F := Ideal) (m ((c : Thread nD τ).loc main_arg11)) :=
  ⟨s3_v70 _ _ _ _ _ _ _ _ _ _ _ _ _ _ (W8 m ρ c) H2 (src8 m ρ c),
    s3_v79 _ _ (W8 m ρ c) (arg8 m ρ c (by decide) (by decide) (by decide) (by decide) (by decide) (by decide)) (arg8 m ρ c (by decide) (by decide) (by decide) (by decide) (by decide) (by decide)),
    s3_v81 _ (W8 m ρ c) (arg8 m ρ c (by decide) (by decide) (by decide) (by decide) (by decide) (by decide)),
    s3_v83 _ (W8 m ρ c) (arg8 m ρ c (by decide) (by decide) (by decide) (by decide) (by decide) (by decide))⟩

/-- Region 4 enters with layer 0's output, layer 1's aggregate, self weights and the bias, gain and shift rows, given
    that region 2 left layer 0's output and region 3 the messages. -/
theorem T5 (H2 : W8 m ρ c (Proc.devRef .tc main_v63) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (H3 : W10 m ρ c (Proc.devRef .tc main_v84) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    W11 m ρ c (Proc.devRef .tc main_v63) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ∧ W11 m ρ c (Proc.devRef .tc main_v89) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ∧ W11 m ρ c (Proc.devRef .tc main_v91) = val_main_v124 (F := Ideal) (m ((c : Thread nD τ).loc main_arg9))
    ∧ (∀ j : Fin 128, W11 m ρ c (Proc.devRef .tc main_v98) (ix2 (0 : Fin 1) j) = val_main_v127 (F := Ideal) (m ((c : Thread nD τ).loc main_arg10)) (ix1 j))
    ∧ (∀ j : Fin 128, W11 m ρ c (Proc.devRef .tc main_v99) (ix2 (0 : Fin 1) j) = val_main_v134 (F := Ideal) (m ((c : Thread nD τ).loc main_arg12)) (ix1 j))
    ∧ (∀ j : Fin 128, W11 m ρ c (Proc.devRef .tc main_v100) (ix2 (0 : Fin 1) j) = val_main_v136 (F := Ideal) (m ((c : Thread nD τ).loc main_arg13)) (ix1 j)) :=
  ⟨(at11 m ρ c (by decide)).trans ((from8to10 m ρ c (by decide) (by decide)).trans H2),
    s4_v89 _ _ _ _ _ _ _ _ _ _ _ _ _ _ (W10 m ρ c) H3 (dst10 m ρ c) (inv10 m ρ c),
    s4_v91 _ (W10 m ρ c) (arg10 m ρ c (by decide) (by decide) (by decide) (by decide) (by decide) (by decide) (by decide) (by decide)),
    s4_v98 _ (W10 m ρ c) (arg10 m ρ c (by decide) (by decide) (by decide) (by decide) (by decide) (by decide) (by decide) (by decide)),
    s4_v99 _ (W10 m ρ c) (arg10 m ρ c (by decide) (by decide) (by decide) (by decide) (by decide) (by decide) (by decide) (by decide)),
    s4_v100 _ (W10 m ρ c) (arg10 m ρ c (by decide) (by decide) (by decide) (by decide) (by decide) (by decide) (by decide) (by decide))⟩

end Cert.Glue

end
-- ==== Proof.RefStages.lean ====
/-
  The reference program's dense stages are the specification's formulas.

  Between two data-dependent operations (a gather, a scatter, the concatenation) the reference is a chain of
  operations whose result at an entry depends on fixed entries of the operands. Each such chain is read at an entry
  (p, q) and identified with the specification's entry: the input projection, the message of an edge in each of the
  two layers, and the node update of each layer (the row before normalisation, its mean, its variance, and the
  normalised row).
-/
import proofs.«143730_j55190329753873_2_alg».proof.Proof.ReadP
import proofs.«143730_j55190329753873_2_alg».proof.Proof.Spec
import Idealize.ShloMosaic.Lib.ValueIdx
import Idealize.ShloMosaic.PureOps.Ideal
import Idealize.ShloMosaic.PureOps.Ideal.Laws

noncomputable section

namespace Cert.RefStages

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S50000, .i32⟩ : BufTy).Contents (Elt Ideal))
  (x2 : (⟨S2x800000, .i32⟩ : BufTy).Contents (Elt Ideal)) (x3 : (⟨S800000, .i32⟩ : BufTy).Contents (Elt Ideal))
  (x4 : (⟨S1000x32, .f32⟩ : BufTy).Contents (Elt Ideal)) (x5 : (⟨S160x128, .f32⟩ : BufTy).Contents (Elt Ideal))
  (x6 : (⟨S128, .f32⟩ : BufTy).Contents (Elt Ideal)) (x7 : (⟨S2x1024x32, .f32⟩ : BufTy).Contents (Elt Ideal))
  (x8 x9 : (⟨S2x128x128, .f32⟩ : BufTy).Contents (Elt Ideal)) (x10 : (⟨S2x128, .f32⟩ : BufTy).Contents (Elt Ideal))
  (x11 : (⟨S2x32x128, .f32⟩ : BufTy).Contents (Elt Ideal)) (x12 x13 : (⟨S2x128, .f32⟩ : BufTy).Contents (Elt Ideal))

/-! ## The input projection -/

/-- Entry (p, q) of the projected features is the rectified sum over k of feature (p, k) times weight (k, q), plus
    the bias at q: the reference's product, broadcast bias, sum and maximum with the zero word, read at (p, q). -/
theorem h0_eq :
    val_main_v16 (F := Ideal) x0 x1 x4 x5 x6
      = Cert.Spec.proj (val_main_v11 (F := Ideal) x0 x1 x4) x5 (fun q => x6 (ix1 q)) := by
  funext j
  obtain ⟨p, q, rfl⟩ : ∃ (p : Fin 50000) (q : Fin 128), j = ix2 p q := ⟨j 0, j 1, eq_ix2 j⟩
  have el : ∀ k : Fin 160, lidx_main_v12 (ix2 p q) k = ix2 p k := fun k => funext fun a => Fin.ext (by match a with | ⟨0, _⟩ => rfl | ⟨1, _⟩ => rfl)
  have er : ∀ k : Fin 160, ridx_main_v12 (ix2 p q) k = ix2 k q := fun k => funext fun a => Fin.ext (by match a with | ⟨0, _⟩ => rfl | ⟨1, _⟩ => rfl)
  have eb : idx_main_v13 (idx_main_v14 (ix2 p q)) = ix1 q := funext fun a => Fin.ext (by match a with | ⟨0, _⟩ => rfl)
  rw [val_main_v16_apply, val_main_v15_apply, val_main_v12_apply, val_main_v14_apply, val_main_v13_apply,
    val_main_call0_v0_apply, val_main_call0_cst_apply]
  simp only [el, er, eb, Ideal.ofBits_def, Ideal.ofBits_zero_f32]
  rfl

/-! ## Layer 0: the messages and the node update -/

/-- Entry (p, q) of an edge's message is the source row against the neighbour weights plus the relation row against
    the relation weights: the reference's two products and their sum, read at (p, q). -/
theorem msg0_eq :
    val_main_v51 (F := Ideal) x0 x1 x2 x3 x4 x5 x6 x7 x8 x11
      = Cert.Spec.msg (val_main_v44 (F := Ideal) x0 x1 x2 x4 x5 x6) (val_main_v37 (F := Ideal) x3 x7)
          (val_main_v46 (F := Ideal) x8) (val_main_v49 (F := Ideal) x11) := by
  funext j
  obtain ⟨p, q, rfl⟩ : ∃ (p : Fin 800000) (q : Fin 128), j = ix2 p q := ⟨j 0, j 1, eq_ix2 j⟩
  have el : ∀ k : Fin 128, lidx_main_v47 (ix2 p q) k = ix2 p k := fun k => funext fun a => Fin.ext (by match a with | ⟨0, _⟩ => rfl | ⟨1, _⟩ => rfl)
  have er : ∀ k : Fin 128, ridx_main_v47 (ix2 p q) k = ix2 k q := fun k => funext fun a => Fin.ext (by match a with | ⟨0, _⟩ => rfl | ⟨1, _⟩ => rfl)
  have fl : ∀ k : Fin 32, lidx_main_v50 (ix2 p q) k = ix2 p k := fun k => funext fun a => Fin.ext (by match a with | ⟨0, _⟩ => rfl | ⟨1, _⟩ => rfl)
  have fr : ∀ k : Fin 32, ridx_main_v50 (ix2 p q) k = ix2 k q := fun k => funext fun a => Fin.ext (by match a with | ⟨0, _⟩ => rfl | ⟨1, _⟩ => rfl)
  rw [val_main_v51_apply, val_main_v47_apply, val_main_v50_apply]
  simp only [el, er, fl, fr]
  rfl

/-- Entry (p, q) of a node's row before normalisation: the self product, the broadcast bias and the aggregated
    messages are added and rectified against the zero word. -/
theorem pre0_at (p : Fin 50000) (q : Fin 128) :
    val_main_v66 (F := Ideal) x0 x1 x2 x3 x4 x5 x6 x7 x8 x9 x10 x11 (ix2 p q)
      = Cert.Spec.preAt (val_main_v16 (F := Ideal) x0 x1 x4 x5 x6) (val_main_v56 (F := Ideal) x0 x1 x2 x3 x4 x5 x6 x7 x8 x11)
          (val_main_v58 (F := Ideal) x9) (fun q => val_main_v61 (F := Ideal) x10 (ix1 q)) p q := by
  have el : ∀ k : Fin 128, lidx_main_v59 (ix2 p q) k = ix2 p k := fun k => funext fun a => Fin.ext (by match a with | ⟨0, _⟩ => rfl | ⟨1, _⟩ => rfl)
  have er : ∀ k : Fin 128, ridx_main_v59 (ix2 p q) k = ix2 k q := fun k => funext fun a => Fin.ext (by match a with | ⟨0, _⟩ => rfl | ⟨1, _⟩ => rfl)
  have eb : idx_main_v62 (idx_main_v63 (ix2 p q)) = ix1 q := funext fun a => Fin.ext (by match a with | ⟨0, _⟩ => rfl)
  rw [val_main_v66_apply, val_main_v65_apply, val_main_v64_apply, val_main_v59_apply, val_main_v63_apply, val_main_v62_apply,
    val_main_call2_v0_apply, val_main_call2_cst_apply]
  simp only [el, er, eb, Ideal.ofBits_def, Ideal.ofBits_zero_f32]
  rfl

/-- The mean of row p: the host sum starts from the zero word, so it is the plain sum of the row, divided by the
    word of 128. It is kept in a column of width one. -/
theorem mean0_at (p : Fin 50000) :
    val_main_v74 (F := Ideal) x0 x1 x2 x3 x4 x5 x6 x7 x8 x9 x10 x11 (ix2 p (0 : Fin 1))
      = Cert.Spec.mean (fun j : Fin 128 => val_main_v66 (F := Ideal) x0 x1 x2 x3 x4 x5 x6 x7 x8 x9 x10 x11 (ix2 p j)) := by
  have e1 : ∀ k : Fin 128, idx_main_v71 (idx_main_v72 (ix2 p (0 : Fin 1))) k = ix2 p k := fun k => funext fun a => Fin.ext (by match a with | ⟨0, _⟩ => rfl | ⟨1, _⟩ => rfl)
  rw [val_main_v74_apply, val_main_v72_apply, val_main_v71_apply, val_main_v73_apply, val_main_cst_11_apply, val_main_cst_12_apply]
  simp only [e1, Ideal.ofBits_def, Ideal.ofBits_zero_f32, zero_add, Ideal.hostDivf_def]
  rfl

/-- The variance of row p: each entry is centred by the row's mean (read from the width-one column), squared, and
    the squares are summed from the zero word and divided by the word of 128. -/
theorem var0_at (p : Fin 50000) :
    val_main_v81 (F := Ideal) x0 x1 x2 x3 x4 x5 x6 x7 x8 x9 x10 x11 (ix2 p (0 : Fin 1))
      = Cert.Spec.var (fun j : Fin 128 => val_main_v66 (F := Ideal) x0 x1 x2 x3 x4 x5 x6 x7 x8 x9 x10 x11 (ix2 p j)) := by
  have e1 : ∀ k : Fin 128, idx_main_v78 (idx_main_v79 (ix2 p (0 : Fin 1))) k = ix2 p k := fun k => funext fun a => Fin.ext (by match a with | ⟨0, _⟩ => rfl | ⟨1, _⟩ => rfl)
  have e2 : ∀ k : Fin 128, idx_main_v75 (ix2 p k) = ix2 p (0 : Fin 1) := fun k => funext fun a => Fin.ext (by match a with | ⟨0, _⟩ => rfl | ⟨1, _⟩ => rfl)
  rw [val_main_v81_apply, val_main_v79_apply, val_main_v78_apply, val_main_v80_apply, val_main_cst_13_apply, val_main_cst_14_apply]
  simp only [e1, val_main_v77_apply, val_main_v76_apply, val_main_v75_apply, e2, mean0_at, Ideal.ofBits_def,
    Ideal.ofBits_zero_f32, zero_add, Ideal.hostDivf_def, Ideal.mulf_def, Ideal.subf_def]
  rfl

/-- The node update: entry (p, q) is the centred entry times the reciprocal root of the variance plus ε, times the
    gain at q, plus the shift at q. The reference centres the row a second time for this product; both centrings
    read the same mean. -/
theorem h1_eq :
    val_main_v94 (F := Ideal) x0 x1 x2 x3 x4 x5 x6 x7 x8 x9 x10 x11 x12 x13
      = Cert.Spec.upd (val_main_v16 (F := Ideal) x0 x1 x4 x5 x6) (val_main_v56 (F := Ideal) x0 x1 x2 x3 x4 x5 x6 x7 x8 x11)
          (val_main_v58 (F := Ideal) x9) (fun q => val_main_v61 (F := Ideal) x10 (ix1 q))
          (fun q => val_main_v68 (F := Ideal) x12 (ix1 q)) (fun q => val_main_v70 (F := Ideal) x13 (ix1 q)) := by
  funext j
  obtain ⟨p, q, rfl⟩ : ∃ (p : Fin 50000) (q : Fin 128), j = ix2 p q := ⟨j 0, j 1, eq_ix2 j⟩
  have em : idx_main_v82 (ix2 p q) = ix2 p (0 : Fin 1) := funext fun a => Fin.ext (by match a with | ⟨0, _⟩ => rfl | ⟨1, _⟩ => rfl)
  have es : idx_main_v87 (ix2 p q) = ix2 p (0 : Fin 1) := funext fun a => Fin.ext (by match a with | ⟨0, _⟩ => rfl | ⟨1, _⟩ => rfl)
  have eg : idx_main_v89 (idx_main_v90 (ix2 p q)) = ix1 q := funext fun a => Fin.ext (by match a with | ⟨0, _⟩ => rfl)
  have eb : idx_main_v92 (idx_main_v93 (ix2 p q)) = ix1 q := funext fun a => Fin.ext (by match a with | ⟨0, _⟩ => rfl)
  rw [val_main_v94_apply, val_main_v91_apply, val_main_v88_apply, val_main_v83_apply, val_main_v82_apply, val_main_v87_apply,
    val_main_v86_apply, val_main_v85_apply, val_main_v84_apply, val_main_cst_15_apply, val_main_v90_apply, val_main_v89_apply,
    val_main_v93_apply, val_main_v92_apply, em, es, eg, eb, mean0_at, var0_at]
  simp only [pre0_at]
  rfl

/-! ## Layer 1: the messages and the node update -/

/-- Entry (p, q) of an edge's message is the source row against the neighbour weights plus the relation row against
    the relation weights: the reference's two products and their sum, read at (p, q). -/
theorem msg1_eq :
    val_main_v117 (F := Ideal) x0 x1 x2 x3 x4 x5 x6 x7 x8 x9 x10 x11 x12 x13
      = Cert.Spec.msg (val_main_v110 (F := Ideal) x0 x1 x2 x3 x4 x5 x6 x7 x8 x9 x10 x11 x12 x13) (val_main_v103 (F := Ideal) x3 x7)
          (val_main_v112 (F := Ideal) x8) (val_main_v115 (F := Ideal) x11) := by
  funext j
  obtain ⟨p, q, rfl⟩ : ∃ (p : Fin 800000) (q : Fin 128), j = ix2 p q := ⟨j 0, j 1, eq_ix2 j⟩
  have el : ∀ k : Fin 128, lidx_main_v113 (ix2 p q) k = ix2 p k := fun k => funext fun a => Fin.ext (by match a with | ⟨0, _⟩ => rfl | ⟨1, _⟩ => rfl)
  have er : ∀ k : Fin 128, ridx_main_v113 (ix2 p q) k = ix2 k q := fun k => funext fun a => Fin.ext (by match a with | ⟨0, _⟩ => rfl | ⟨1, _⟩ => rfl)
  have fl : ∀ k : Fin 32, lidx_main_v116 (ix2 p q) k = ix2 p k := fun k => funext fun a => Fin.ext (by match a with | ⟨0, _⟩ => rfl | ⟨1, _⟩ => rfl)
  have fr : ∀ k : Fin 32, ridx_main_v116 (ix2 p q) k = ix2 k q := fun k => funext fun a => Fin.ext (by match a with | ⟨0, _⟩ => rfl | ⟨1, _⟩ => rfl)
  rw [val_main_v117_apply, val_main_v113_apply, val_main_v116_apply]
  simp only [el, er, fl, fr]
  rfl

/-- Entry (p, q) of a node's row before normalisation: the self product, the broadcast bias and the aggregated
    messages are added and rectified against the zero word. -/
theorem pre1_at (p : Fin 50000) (q : Fin 128) :
    val_main_v132 (F := Ideal) x0 x1 x2 x3 x4 x5 x6 x7 x8 x9 x10 x11 x12 x13 (ix2 p q)
      = Cert.Spec.preAt (val_main_v94 (F := Ideal) x0 x1 x2 x3 x4 x5 x6 x7 x8 x9 x10 x11 x12 x13) (val_main_v122 (F := Ideal) x0 x1 x2 x3 x4 x5 x6 x7 x8 x9 x10 x11 x12 x13)
          (val_main_v124 (F := Ideal) x9) (fun q => val_main_v127 (F := Ideal) x10 (ix1 q)) p q := by
  have el : ∀ k : Fin 128, lidx_main_v125 (ix2 p q) k = ix2 p k := fun k => funext fun a => Fin.ext (by match a with | ⟨0, _⟩ => rfl | ⟨1, _⟩ => rfl)
  have er : ∀ k : Fin 128, ridx_main_v125 (ix2 p q) k = ix2 k q := fun k => funext fun a => Fin.ext (by match a with | ⟨0, _⟩ => rfl | ⟨1, _⟩ => rfl)
  have eb : idx_main_v128 (idx_main_v129 (ix2 p q)) = ix1 q := funext fun a => Fin.ext (by match a with | ⟨0, _⟩ => rfl)
  rw [val_main_v132_apply, val_main_v131_apply, val_main_v130_apply, val_main_v125_apply, val_main_v129_apply, val_main_v128_apply,
    val_main_call3_v0_apply, val_main_call3_cst_apply]
  simp only [el, er, eb, Ideal.ofBits_def, Ideal.ofBits_zero_f32]
  rfl

/-- The mean of row p: the host sum starts from the zero word, so it is the plain sum of the row, divided by the
    word of 128. It is kept in a column of width one. -/
theorem mean1_at (p : Fin 50000) :
    val_main_v140 (F := Ideal) x0 x1 x2 x3 x4 x5 x6 x7 x8 x9 x10 x11 x12 x13 (ix2 p (0 : Fin 1))
      = Cert.Spec.mean (fun j : Fin 128 => val_main_v132 (F := Ideal) x0 x1 x2 x3 x4 x5 x6 x7 x8 x9 x10 x11 x12 x13 (ix2 p j)) := by
  have e1 : ∀ k : Fin 128, idx_main_v137 (idx_main_v138 (ix2 p (0 : Fin 1))) k = ix2 p k := fun k => funext fun a => Fin.ext (by match a with | ⟨0, _⟩ => rfl | ⟨1, _⟩ => rfl)
  rw [val_main_v140_apply, val_main_v138_apply, val_main_v137_apply, val_main_v139_apply, val_main_cst_21_apply, val_main_cst_22_apply]
  simp only [e1, Ideal.ofBits_def, Ideal.ofBits_zero_f32, zero_add, Ideal.hostDivf_def]
  rfl

/-- The variance of row p: each entry is centred by the row's mean (read from the width-one column), squared, and
    the squares are summed from the zero word and divided by the word of 128. -/
theorem var1_at (p : Fin 50000) :
    val_main_v147 (F := Ideal) x0 x1 x2 x3 x4 x5 x6 x7 x8 x9 x10 x11 x12 x13 (ix2 p (0 : Fin 1))
      = Cert.Spec.var (fun j : Fin 128 => val_main_v132 (F := Ideal) x0 x1 x2 x3 x4 x5 x6 x7 x8 x9 x10 x11 x12 x13 (ix2 p j)) := by
  have e1 : ∀ k : Fin 128, idx_main_v144 (idx_main_v145 (ix2 p (0 : Fin 1))) k = ix2 p k := fun k => funext fun a => Fin.ext (by match a with | ⟨0, _⟩ => rfl | ⟨1, _⟩ => rfl)
  have e2 : ∀ k : Fin 128, idx_main_v141 (ix2 p k) = ix2 p (0 : Fin 1) := fun k => funext fun a => Fin.ext (by match a with | ⟨0, _⟩ => rfl | ⟨1, _⟩ => rfl)
  rw [val_main_v147_apply, val_main_v145_apply, val_main_v144_apply, val_main_v146_apply, val_main_cst_23_apply, val_main_cst_24_apply]
  simp only [e1, val_main_v143_apply, val_main_v142_apply, val_main_v141_apply, e2, mean1_at, Ideal.ofBits_def,
    Ideal.ofBits_zero_f32, zero_add, Ideal.hostDivf_def, Ideal.mulf_def, Ideal.subf_def]
  rfl

/-- The node update: entry (p, q) is the centred entry times the reciprocal root of the variance plus ε, times the
    gain at q, plus the shift at q. The reference centres the row a second time for this product; both centrings
    read the same mean. -/
theorem out_eq :
    val_main_v160 (F := Ideal) x0 x1 x2 x3 x4 x5 x6 x7 x8 x9 x10 x11 x12 x13
      = Cert.Spec.upd (val_main_v94 (F := Ideal) x0 x1 x2 x3 x4 x5 x6 x7 x8 x9 x10 x11 x12 x13) (val_main_v122 (F := Ideal) x0 x1 x2 x3 x4 x5 x6 x7 x8 x9 x10 x11 x12 x13)
          (val_main_v124 (F := Ideal) x9) (fun q => val_main_v127 (F := Ideal) x10 (ix1 q))
          (fun q => val_main_v134 (F := Ideal) x12 (ix1 q)) (fun q => val_main_v136 (F := Ideal) x13 (ix1 q)) := by
  funext j
  obtain ⟨p, q, rfl⟩ : ∃ (p : Fin 50000) (q : Fin 128), j = ix2 p q := ⟨j 0, j 1, eq_ix2 j⟩
  have em : idx_main_v148 (ix2 p q) = ix2 p (0 : Fin 1) := funext fun a => Fin.ext (by match a with | ⟨0, _⟩ => rfl | ⟨1, _⟩ => rfl)
  have es : idx_main_v153 (ix2 p q) = ix2 p (0 : Fin 1) := funext fun a => Fin.ext (by match a with | ⟨0, _⟩ => rfl | ⟨1, _⟩ => rfl)
  have eg : idx_main_v155 (idx_main_v156 (ix2 p q)) = ix1 q := funext fun a => Fin.ext (by match a with | ⟨0, _⟩ => rfl)
  have eb : idx_main_v158 (idx_main_v159 (ix2 p q)) = ix1 q := funext fun a => Fin.ext (by match a with | ⟨0, _⟩ => rfl)
  rw [val_main_v160_apply, val_main_v157_apply, val_main_v154_apply, val_main_v149_apply, val_main_v148_apply, val_main_v153_apply,
    val_main_v152_apply, val_main_v151_apply, val_main_v150_apply, val_main_cst_25_apply, val_main_v156_apply, val_main_v155_apply,
    val_main_v159_apply, val_main_v158_apply, em, es, eg, eb, mean1_at, var1_at]
  simp only [pre1_at]
  rfl

end Cert.RefStages

end
-- ==== Proof.Assemble.lean ====
/-
  The idealized kernel's result is the reference's last stage of the arguments.

  Both programs are the same chain: project the inputs, then twice (gather rows along the edges, form the messages,
  scatter-add them per node and scale by the inverse degree, update and normalise the node rows). The kernel computes the
  three dense steps in regions and the reference on the host; the gathers, the scatter-adds and the slicing of the weights
  are the same host operations in both. So the chain is walked once: each region's output array is one function of the
  arrays it was entered with (blocks to array), those arrays are the reference's stages of the arguments (the shared host
  operations applied to equal values), and that function of them is the reference's next stage (the stage read index by
  index). After the fifth region the result buffer holds the reference's result stage.
-/
import proofs.«143730_j55190329753873_2_alg».proof.Proof.KernelRun
import proofs.«143730_j55190329753873_2_alg».proof.Proof.Region0
import proofs.«143730_j55190329753873_2_alg».proof.Proof.Region1
import proofs.«143730_j55190329753873_2_alg».proof.Proof.Region2
import proofs.«143730_j55190329753873_2_alg».proof.Proof.Region3
import proofs.«143730_j55190329753873_2_alg».proof.Proof.Region4
import proofs.«143730_j55190329753873_2_alg».proof.Proof.HostGlue
import proofs.«143730_j55190329753873_2_alg».proof.Proof.RefStages

set_option maxRecDepth 16384

noncomputable section

namespace Cert.Assemble

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After region 0 the projected node rows are the reference's rectified projection. -/
theorem nodes0 : W2 m ρ c (Proc.devRef .tc main_v13) = Cert.ReferenceIdeal.ReadP.val_main_v16 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W2_arr m ρ c 3).trans ((Cert.KernelIdeal.Arr0.final (V1 m ρ) c).trans ?_)
  rw [Cert.RefStages.h0_eq]
  show Cert.Spec.proj (W1 m ρ c (Proc.devRef .tc main_v11)) (W1 m ρ c (Proc.devRef .tc main_arg5))
    (fun j => W1 m ρ c (Proc.devRef .tc main_v12) (ix2 0 j)) = _
  rw [Cert.Glue.T1a m ρ c, Cert.Glue.T1b m ρ c, funext (Cert.Glue.T1c m ρ c)]

/-- After region 1 the messages of the first layer are the reference's. -/
theorem msgs0 : W6 m ρ c (Proc.devRef .tc main_v46) = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  refine (W6_arr m ρ c 4).trans ((Cert.KernelIdeal.Arr1.final (V5 m ρ) c).trans ?_)
  rw [Cert.RefStages.msg0_eq]
  obtain ⟨e1, e2, e3, e4⟩ := Cert.Glue.T2 m ρ c (nodes0 m ρ c)
  show Cert.Spec.msg (W5 m ρ c (Proc.devRef .tc main_v32)) (W5 m ρ c (Proc.devRef .tc main_v41))
    (W5 m ρ c (Proc.devRef .tc main_v43)) (W5 m ρ c (Proc.devRef .tc main_v45)) = _
  rw [e1, e2, e3, e4]

/-- After region 2 the node rows of the first layer are the reference's. -/
theorem nodes1 : W8 m ρ c (Proc.devRef .tc main_v63) = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 6).trans ((Cert.KernelIdeal.Arr2.final (V7 m ρ) c).trans ?_)
  rw [Cert.RefStages.h1_eq]
  obtain ⟨e1, e2, e3, e4, e5, e6⟩ := Cert.Glue.T3 m ρ c (nodes0 m ρ c) (msgs0 m ρ c)
  show Cert.Spec.upd (W7 m ρ c (Proc.devRef .tc main_v13)) (W7 m ρ c (Proc.devRef .tc main_v51))
    (W7 m ρ c (Proc.devRef .tc main_v53)) (fun j => W7 m ρ c (Proc.devRef .tc main_v60) (ix2 0 j))
    (fun j => W7 m ρ c (Proc.devRef .tc main_v61) (ix2 0 j)) (fun j => W7 m ρ c (Proc.devRef .tc main_v62) (ix2 0 j)) = _
  rw [e1, e2, e3, funext e4, funext e5, funext e6]

/-- After region 3 the messages of the second layer are the reference's. -/
theorem msgs1 : W10 m ρ c (Proc.devRef .tc main_v84) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 4).trans ((Cert.KernelIdeal.Arr3.final (V9 m ρ) c).trans ?_)
  rw [Cert.RefStages.msg1_eq]
  obtain ⟨e1, e2, e3, e4⟩ := Cert.Glue.T4 m ρ c (nodes1 m ρ c)
  show Cert.Spec.msg (W9 m ρ c (Proc.devRef .tc main_v70)) (W9 m ρ c (Proc.devRef .tc main_v79))
    (W9 m ρ c (Proc.devRef .tc main_v81)) (W9 m ρ c (Proc.devRef .tc main_v83)) = _
  rw [e1, e2, e3, e4]

/-- After region 4 the result buffer holds the reference's result stage of the arguments. -/
theorem result : W12 m ρ c (Proc.devRef .tc main_v101) = Cert.ReferenceIdeal.ReadP.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W12_arr m ρ c 6).trans ((Cert.KernelIdeal.Arr4.final (V11 m ρ) c).trans ?_)
  rw [Cert.RefStages.out_eq]
  obtain ⟨e1, e2, e3, e4, e5, e6⟩ := Cert.Glue.T5 m ρ c (nodes1 m ρ c) (msgs1 m ρ c)
  show Cert.Spec.upd (W11 m ρ c (Proc.devRef .tc main_v63)) (W11 m ρ c (Proc.devRef .tc main_v89))
    (W11 m ρ c (Proc.devRef .tc main_v91)) (fun j => W11 m ρ c (Proc.devRef .tc main_v98) (ix2 0 j))
    (fun j => W11 m ρ c (Proc.devRef .tc main_v99) (ix2 0 j)) (fun j => W11 m ρ c (Proc.devRef .tc main_v100) (ix2 0 j)) = _
  rw [e1, e2, e3, funext e4, funext e5, funext e6]

end Cert.Assemble

end
-- ==== Proof.lean ====
/-
  A relational graph encoder on 50000 nodes and 800000 edges, its kernel against its reference, on the extended reals.

  The encoder projects each node's features (concatenated with the embedding of its label) through a rectified affine map,
  and then, twice: gathers the node rows along the edges' sources, forms each edge's message (the source row through the
  neighbour weights plus the relation's embedding through the relation weights), sums the messages of each target node and
  scales by the inverse in-degree, adds the node's own row through the self weights and a bias, rectifies, and normalises
  each row to mean 0 and variance 1 (with ε) before a gain and a shift.

  The kernel computes the three dense steps — projection, messages, update — in five tiled regions whose matrix products
  round their operands to bf16; the reference computes them on the host in f32. On the extended reals a change of format
  is the identity, a product against a zero accumulator is the host's product, a lane sum is the host's sum from zero, the
  row tiling restricts one function of the whole arrays, and both programs spell the divisor 128 and ε by the same words;
  the gathers, scatter-adds and weight slices are the same host operations in both. No law of arithmetic beyond reading a
  sum term by term is used, so the finiteness of the inputs is never opened.

  The three frames are the generated ones (the reference's is its run with the result dropped); the kernel's idealization
  rewrote nothing, so `preserves` is `True`; `algebraic` is the two runs side by side (Proof/KernelRun.lean,
  Proof/RunP.lean) with the kernel's result read as the reference's last stage of the arguments (Proof/Assemble.lean).
-/
import proofs.«143730_j55190329753873_2_alg».proof.Defs
import proofs.«143730_j55190329753873_2_alg».proof.Proof.Gen.Kernel
import proofs.«143730_j55190329753873_2_alg».proof.Proof.Gen.Kernel.Skeleton
import proofs.«143730_j55190329753873_2_alg».proof.Proof.Gen.Kernel.Launch
import proofs.«143730_j55190329753873_2_alg».proof.Proof.Gen.Kernel.Points
import proofs.«143730_j55190329753873_2_alg».proof.Proof.Gen.Kernel.Frame
import proofs.«143730_j55190329753873_2_alg».proof.Proof.Gen.KernelIdeal
import proofs.«143730_j55190329753873_2_alg».proof.Proof.Gen.KernelIdeal.Skeleton
import proofs.«143730_j55190329753873_2_alg».proof.Proof.Gen.KernelIdeal.Launch
import proofs.«143730_j55190329753873_2_alg».proof.Proof.Gen.KernelIdeal.Points
import proofs.«143730_j55190329753873_2_alg».proof.Proof.Gen.KernelIdeal.Frame
import proofs.«143730_j55190329753873_2_alg».proof.Proof.Gen.ReferenceIdeal
import proofs.«143730_j55190329753873_2_alg».proof.Proof.Gen.Pre_finite_inputs
import proofs.«143730_j55190329753873_2_alg».proof.Proof.RunP
import proofs.«143730_j55190329753873_2_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the reference's last stage of the argument arrays, which agree. -/
theorem algebraic : Cert.algebraic_KernelIdeal_ReferenceIdeal := by
  intro m ρ m' ρ' _ hagree
  refine ⟨fun c => Cert.ReferenceIdeal.ReadP.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Assemble.result m ρ c), (h c).2⟩) (Cert.KernelIdeal.Out.run (F := Ideal) m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
